-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576x16 : Shape := ⟨2, ![1048576, 16]⟩
abbrev S76x64 : Shape := ⟨2, ![76, 64]⟩
abbrev S64 : Shape := ⟨1, ![64]⟩
abbrev S64x64 : Shape := ⟨2, ![64, 64]⟩
abbrev S64x76 : Shape := ⟨2, ![64, 76]⟩
abbrev S76 : Shape := ⟨1, ![76]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S1048576x16 : S_.BroadcastsInDim S1048576x16 (![] : Fin 0 → Fin S1048576x16.rank)
  reducesTo_S1048576x16_S_d0_1 : S1048576x16.ReducesTo [0, 1] S_
  bcast_S_S76x64 : S_.BroadcastsInDim S76x64 (![] : Fin 0 → Fin S76x64.rank)
  reducesTo_S76x64_S_d0_1 : S76x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x76 : S_.BroadcastsInDim S64x76 (![] : Fin 0 → Fin S64x76.rank)
  reducesTo_S64x76_S_d0_1 : S64x76.ReducesTo [0, 1] S_
  bcast_S_S76 : S_.BroadcastsInDim S76 (![] : Fin 0 → Fin S76.rank)
  reducesTo_S76_S_d0 : S76.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part6 {F : FTy → Type} [FloatOps F] (main_v98 : IVec S_ 1) (main_v101 : IVec S16 1) (main_c_39 : IVec S_ 1) : IVec S_ 1 :=
  let main_v102 : IVec S_ 1 := (fun x v => Host.reduce IntOp.andi x v reducesTo_S16_S_d0 h_S_) main_v101 main_c_39
  let main_v103 : IVec S_ 1 := andi main_v98 main_v102
  main_v103

def fn_part5 {F : FTy → Type} [FloatOps F] (main_arg18 : FVec F S16 .f32) (main_arg19 : FVec F S16x16 .f32) (main_arg20 : FVec F S16 .f32) (main_v83 : IVec S_ 1) (main_v84 : FVec F S16x16 .f32) (main_cst_32 : FVec F S_ .f32) : IVec S_ 1 :=
  let main_v85 : FVec F S16x16 .f32 := broadcastInDim S16x16 ![] bcast_S_S16x16 main_cst_32
  let main_v86 : IVec S16x16 1 := cmpf .olt main_v84 main_v85
  let main_c_33 : IVec S_ 1 := constantI S_ 1 1#1
  let main_v87 : IVec S_ 1 := (fun x v => Host.reduce IntOp.andi x v reducesTo_S16x16_S_d0_1 h_S_) main_v86 main_c_33
  let main_v88 : IVec S_ 1 := andi main_v83 main_v87
  let main_v89 : FVec F S16 .f32 := Host.absf main_arg18
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S16x16 .f32 := Host.absf main_arg19
  let main_cst_36 : FVec F S_ .f32 := constant S_ .f32 0x7F800000#32
  let main_v95 : FVec F S16x16 .f32 := broadcastInDim S16x16 ![] bcast_S_S16x16 main_cst_36
  let main_v96 : IVec S16x16 1 := cmpf .olt main_v94 main_v95
  let main_c_37 : IVec S_ 1 := constantI S_ 1 1#1
  let main_v97 : IVec S_ 1 := (fun x v => Host.reduce IntOp.andi x v reducesTo_S16x16_S_d0_1 h_S_) main_v96 main_c_37
  let main_v98 : IVec S_ 1 := andi main_v93 main_v97
  let main_v99 : FVec F S16 .f32 := Host.absf main_arg20
  let main_cst_38 : FVec F S_ .f32 := constant S_ .f32 0x7F800000#32
  let main_v100 : FVec F S16 .f32 := broadcastInDim S16 ![] bcast_S_S16 main_cst_38
  let main_v101 : IVec S16 1 := cmpf .olt main_v99 main_v100
  let main_c_39 : IVec S_ 1 := constantI S_ 1 1#1
  fn_part6 (F := F) main_v98 main_v101 main_c_39

def fn_part4 {F : FTy → Type} [FloatOps F] (main_arg14 : FVec F S32 .f32) (main_arg15 : FVec F S32x16 .f32) (main_arg16 : FVec F S16 .f32) (main_arg17 : FVec F S16x16 .f32) (main_arg18 : FVec F S16 .f32) (main_arg19 : FVec F S16x16 .f32) (main_arg20 : FVec F S16 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x16 .f32 := Host.absf main_arg15
  let main_cst_28 : FVec F S_ .f32 := constant S_ .f32 0x7F800000#32
  let main_v75 : FVec F S32x16 .f32 := broadcastInDim S32x16 ![] bcast_S_S32x16 main_cst_28
  let main_v76 : IVec S32x16 1 := cmpf .olt main_v74 main_v75
  let main_c_29 : IVec S_ 1 := constantI S_ 1 1#1
  let main_v77 : IVec S_ 1 := (fun x v => Host.reduce IntOp.andi x v reducesTo_S32x16_S_d0_1 h_S_) main_v76 main_c_29
  let main_v78 : IVec S_ 1 := andi main_v73 main_v77
  let main_v79 : FVec F S16 .f32 := Host.absf main_arg16
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16x16 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S64x64 .f32) (main_arg12 : FVec F S64 .f32) (main_arg13 : FVec F S64x32 .f32) (main_arg14 : FVec F S32 .f32) (main_arg15 : FVec F S32x16 .f32) (main_arg16 : FVec F S16 .f32) (main_arg17 : FVec F S16x16 .f32) (main_arg18 : FVec F S16 .f32) (main_arg19 : FVec F S16x16 .f32) (main_arg20 : FVec F S16 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg13
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S64x76 .f32) (main_arg8 : FVec F S76 .f32) (main_arg9 : FVec F S76x64 .f32) (main_arg10 : FVec F S64 .f32) (main_arg11 : FVec F S64x64 .f32) (main_arg12 : FVec F S64 .f32) (main_arg13 : FVec F S64x32 .f32) (main_arg14 : FVec F S32 .f32) (main_arg15 : FVec F S32x16 .f32) (main_arg16 : FVec F S16 .f32) (main_arg17 : FVec F S16x16 .f32) (main_arg18 : FVec F S16 .f32) (main_arg19 : FVec F S16x16 .f32) (main_arg20 : FVec F S16 .f32) (main_v33 : IVec S_ 1) : IVec S_ 1 :=
  let main_v34 : FVec F S64x76 .f32 := Host.absf main_arg7
  let main_cst_12 : FVec F S_ .f32 := constant S_ .f32 0x7F800000#32
  let main_v35 : FVec F S64x76 .f32 := broadcastInDim S64x76 ![] bcast_S_S64x76 main_cst_12
  let main_v36 : IVec S64x76 1 := cmpf .olt main_v34 main_v35
  let main_c_13 : IVec S_ 1 := constantI S_ 1 1#1
  let main_v37 : IVec S_ 1 := (fun x v => Host.reduce IntOp.andi x v reducesTo_S64x76_S_d0_1 h_S_) main_v36 main_c_13
  let main_v38 : IVec S_ 1 := andi main_v33 main_v37
  let main_v39 : FVec F S76 .f32 := Host.absf main_arg8
  let main_cst_14 : FVec F S_ .f32 := constant S_ .f32 0x7F800000#32
  let main_v40 : FVec F S76 .f32 := broadcastInDim S76 ![] bcast_S_S76 main_cst_14
  let main_v41 : IVec S76 1 := cmpf .olt main_v39 main_v40
  let main_c_15 : IVec S_ 1 := constantI S_ 1 1#1
  let main_v42 : IVec S_ 1 := (fun x v => Host.reduce IntOp.andi x v reducesTo_S76_S_d0 h_S_) main_v41 main_c_15
  let main_v43 : IVec S_ 1 := andi main_v38 main_v42
  let main_v44 : FVec F S76x64 .f32 := Host.absf main_arg9
  let main_cst_16 : FVec F S_ .f32 := constant S_ .f32 0x7F800000#32
  let main_v45 : FVec F S76x64 .f32 := broadcastInDim S76x64 ![] bcast_S_S76x64 main_cst_16
  let main_v46 : IVec S76x64 1 := cmpf .olt main_v44 main_v45
  let main_c_17 : IVec S_ 1 := constantI S_ 1 1#1
  let main_v47 : IVec S_ 1 := (fun x v => Host.reduce IntOp.andi x v reducesTo_S76x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S64 .f32) (main_arg5 : FVec F S64x64 .f32) (main_arg6 : FVec F S64 .f32) (main_arg7 : FVec F S64x76 .f32) (main_arg8 : FVec F S76 .f32) (main_arg9 : FVec F S76x64 .f32) (main_arg10 : FVec F S64 .f32) (main_arg11 : FVec F S64x64 .f32) (main_arg12 : FVec F S64 .f32) (main_arg13 : FVec F S64x32 .f32) (main_arg14 : FVec F S32 .f32) (main_arg15 : FVec F S32x16 .f32) (main_arg16 : FVec F S16 .f32) (main_arg17 : FVec F S16x16 .f32) (main_arg18 : FVec F S16 .f32) (main_arg19 : FVec F S16x16 .f32) (main_arg20 : FVec F S16 .f32) (main_v13 : IVec S_ 1) (main_v16 : IVec S76x64 1) : IVec S_ 1 :=
  let main_c_5 : IVec S_ 1 := constantI S_ 1 1#1
  let main_v17 : IVec S_ 1 := (fun x v => Host.reduce IntOp.andi x v reducesTo_S76x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S1048576x64 .f32) (main_arg1 : FVec F S1048576x16 .f32) (main_arg2 : FVec F S1048576x16 .f32) (main_arg3 : FVec F S76x64 .f32) (main_arg4 : FVec F S64 .f32) (main_arg5 : FVec F S64x64 .f32) (main_arg6 : FVec F S64 .f32) (main_arg7 : FVec F S64x76 .f32) (main_arg8 : FVec F S76 .f32) (main_arg9 : FVec F S76x64 .f32) (main_arg10 : FVec F S64 .f32) (main_arg11 : FVec F S64x64 .f32) (main_arg12 : FVec F S64 .f32) (main_arg13 : FVec F S64x32 .f32) (main_arg14 : FVec F S32 .f32) (main_arg15 : FVec F S32x16 .f32) (main_arg16 : FVec F S16 .f32) (main_arg17 : FVec F S16x16 .f32) (main_arg18 : FVec F S16 .f32) (main_arg19 : FVec F S16x16 .f32) (main_arg20 : FVec F S16 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S1048576x16 .f32 := Host.absf main_arg1
  let main_cst_0 : FVec F S_ .f32 := constant S_ .f32 0x7F800000#32
  let main_v5 : FVec F S1048576x16 .f32 := broadcastInDim S1048576x16 ![] bcast_S_S1048576x16 main_cst_0
  let main_v6 : IVec S1048576x16 1 := cmpf .olt main_v4 main_v5
  let main_c_1 : IVec S_ 1 := constantI S_ 1 1#1
  let main_v7 : IVec S_ 1 := (fun x v => Host.reduce IntOp.andi x v reducesTo_S1048576x16_S_d0_1 h_S_) main_v6 main_c_1
  let main_v8 : IVec S_ 1 := andi main_v3 main_v7
  let main_v9 : FVec F S1048576x16 .f32 := Host.absf main_arg2
  let main_cst_2 : FVec F S_ .f32 := constant S_ .f32 0x7F800000#32
  let main_v10 : FVec F S1048576x16 .f32 := broadcastInDim S1048576x16 ![] bcast_S_S1048576x16 main_cst_2
  let main_v11 : IVec S1048576x16 1 := cmpf .olt main_v9 main_v10
  let main_c_3 : IVec S_ 1 := constantI S_ 1 1#1
  let main_v12 : IVec S_ 1 := (fun x v => Host.reduce IntOp.andi x v reducesTo_S1048576x16_S_d0_1 h_S_) main_v11 main_c_3
  let main_v13 : IVec S_ 1 := andi main_v8 main_v12
  let main_v14 : FVec F S76x64 .f32 := Host.absf main_arg3
  let main_cst_4 : FVec F S_ .f32 := constant S_ .f32 0x7F800000#32
  let main_v15 : FVec F S76x64 .f32 := broadcastInDim S76x64 ![] bcast_S_S76x64 main_cst_4
  let main_v16 : IVec S76x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S1048576x64 : Shape := ⟨2, ![1048576, 64]⟩
abbrev S1048576x16 : Shape := ⟨2, ![1048576, 16]⟩
abbrev S76x64 : Shape := ⟨2, ![76, 64]⟩
abbrev S64 : Shape := ⟨1, ![64]⟩
abbrev S64x64 : Shape := ⟨2, ![64, 64]⟩
abbrev S64x76 : Shape := ⟨2, ![64, 76]⟩
abbrev S76 : Shape := ⟨1, ![76]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S1x64 : Shape := ⟨2, ![1, 64]⟩
abbrev S1x76 : Shape := ⟨2, ![1, 76]⟩
abbrev S1x32 : Shape := ⟨2, ![1, 32]⟩
abbrev S1x16 : Shape := ⟨2, ![1, 16]⟩
abbrev S4096x64 : Shape := ⟨2, ![4096, 64]⟩
abbrev S4096x16 : Shape := ⟨2, ![4096, 16]⟩
abbrev S4096x60 : Shape := ⟨2, ![4096, 60]⟩
abbrev S60x64 : Shape := ⟨2, ![60, 64]⟩
abbrev S16x64 : Shape := ⟨2, ![16, 64]⟩
abbrev S4096x76 : Shape := ⟨2, ![4096, 76]⟩
abbrev S4096x32 : Shape := ⟨2, ![4096, 32]⟩

abbrev nBuf : Space → Nat
  | .hbm => 42
  | .vmem => 30
  | .smem => 0
  | _ => 0

abbrev bufTy : (tb : Table) → Fin (tcTables nBuf tb) → BufTy
  | .hbm, ⟨0, _⟩ => ⟨S1048576x64, .f32⟩
  | .hbm, ⟨1, _⟩ => ⟨S1048576x16, .f32⟩
  | .hbm, ⟨2, _⟩ => ⟨S1048576x16, .f32⟩
  | .hbm, ⟨3, _⟩ => ⟨S76x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x76, .f32⟩
  | .hbm, ⟨8, _⟩ => ⟨S76, .f32⟩
  | .hbm, ⟨9, _⟩ => ⟨S76x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x32, .f32⟩
  | .hbm, ⟨14, _⟩ => ⟨S32, .f32⟩
  | .hbm, ⟨15, _⟩ => ⟨S32x16, .f32⟩
  | .hbm, ⟨16, _⟩ => ⟨S16, .f32⟩
  | .hbm, ⟨17, _⟩ => ⟨S16x16, .f32⟩
  | .hbm, ⟨18, _⟩ => ⟨S16, .f32⟩
  | .hbm, ⟨19, _⟩ => ⟨S16x16, .f32⟩
  | .hbm, ⟨20, _⟩ => ⟨S16, .f32⟩
  | .hbm, ⟨21, _⟩ => ⟨S76x64, .bf16⟩
  | .hbm, ⟨22, _⟩ => ⟨S64x64, .bf16⟩
  | .hbm, ⟨23, _⟩ => ⟨S64x76, .bf16⟩
  | .hbm, ⟨24, _⟩ => ⟨S76x64, .bf16⟩
  | .hbm, ⟨25, _⟩ => ⟨S64x64, .bf16⟩
  | .hbm, ⟨26, _⟩ => ⟨S64x32, .bf16⟩
  | .hbm, ⟨27, _⟩ => ⟨S32x16, .bf16⟩
  | .hbm, ⟨28, _⟩ => ⟨S16x16, .bf16⟩
  | .hbm, ⟨29, _⟩ => ⟨S16x16, .bf16⟩
  | .hbm, ⟨30, _⟩ => ⟨S1x64, .f32⟩
  | .hbm, ⟨31, _⟩ => ⟨S1x64, .f32⟩
  | .hbm, ⟨32, _⟩ => ⟨S1x76, .f32⟩
  | .hbm, ⟨33, _⟩ => ⟨S1x64, .f32⟩
  | .hbm, ⟨34, _⟩ => ⟨S1x64, .f32⟩
  | .hbm, ⟨35, _⟩ => ⟨S1x32, .f32⟩
  | .hbm, ⟨36, _⟩ => ⟨S1x16, .f32⟩
  | .hbm, ⟨37, _⟩ => ⟨S1x16, .f32⟩
  | .hbm, ⟨38, _⟩ => ⟨S1x16, .f32⟩
  | .hbm, ⟨39, _⟩ => ⟨S1048576x16, .f32⟩
  | .hbm, ⟨40, _⟩ => ⟨S1048576x16, .f32⟩
  | .hbm, ⟨41, _⟩ => ⟨S1048576x16, .f32⟩
  | .local _ .vmem, ⟨0, _⟩ => ⟨S4096x64, .f32⟩
  | .local _ .vmem, ⟨1, _⟩ => ⟨S4096x64, .f32⟩
  | .local _ .vmem, ⟨2, _⟩ => ⟨S4096x16, .f32⟩
  | .local _ .vmem, ⟨3, _⟩ => ⟨S4096x16, .f32⟩
  | .local _ .vmem, ⟨4, _⟩ => ⟨S4096x16, .f32⟩
  | .local _ .vmem, ⟨5, _⟩ => ⟨S4096x16, .f32⟩
  | .local _ .vmem, ⟨6, _⟩ => ⟨S76x64, .bf16⟩
  | .local _ .vmem, ⟨7, _⟩ => ⟨S1x64, .f32⟩
  | .local _ .vmem, ⟨8, _⟩ => ⟨S64x64, .bf16⟩
  | .local _ .vmem, ⟨9, _⟩ => ⟨S1x64, .f32⟩
  | .local _ .vmem, ⟨10, _⟩ => ⟨S64x76, .bf16⟩
  | .local _ .vmem, ⟨11, _⟩ => ⟨S1x76, .f32⟩
  | .local _ .vmem, ⟨12, _⟩ => ⟨S76x64, .bf16⟩
  | .local _ .vmem, ⟨13, _⟩ => ⟨S1x64, .f32⟩
  | .local _ .vmem, ⟨14, _⟩ => ⟨S64x64, .bf16⟩
  | .local _ .vmem, ⟨15, _⟩ => ⟨S1x64, .f32⟩
  | .local _ .vmem, ⟨16, _⟩ => ⟨S64x32, .bf16⟩
  | .local _ .vmem, ⟨17, _⟩ => ⟨S1x32, .f32⟩
  | .local _ .vmem, ⟨18, _⟩ => ⟨S32x16, .bf16⟩
  | .local _ .vmem, ⟨19, _⟩ => ⟨S1x16, .f32⟩
  | .local _ .vmem, ⟨20, _⟩ => ⟨S16x16, .bf16⟩
  | .local _ .vmem, ⟨21, _⟩ => ⟨S1x16, .f32⟩
  | .local _ .vmem, ⟨22, _⟩ => ⟨S16x16, .bf16⟩
  | .local _ .vmem, ⟨23, _⟩ => ⟨S1x16, .f32⟩
  | .local _ .vmem, ⟨24, _⟩ => ⟨S4096x16, .f32⟩
  | .local _ .vmem, ⟨25, _⟩ => ⟨S4096x16, .f32⟩
  | .local _ .vmem, ⟨26, _⟩ => ⟨S4096x16, .f32⟩
  | .local _ .vmem, ⟨27, _⟩ => ⟨S4096x16, .f32⟩
  | .local _ .vmem, ⟨28, _⟩ => ⟨S4096x16, .f32⟩
  | .local _ .vmem, ⟨29, _⟩ => ⟨S4096x16, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18_0 : Ref sig .tc := ⟨.hbm, 39, rfl⟩
abbrev main_v18_1 : Ref sig .tc := ⟨.hbm, 40, rfl⟩
abbrev main_v18_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem21_1 : DmaSem sig := 25
abbrev cc0_sem22_0 : DmaSem sig := 26
abbrev cc0_sem22_1 : DmaSem sig := 27
abbrev cc0_sem23_0 : DmaSem sig := 28
abbrev cc0_sem23_1 : DmaSem sig := 29

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S76x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x76 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x76 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S76x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x32 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x16 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x16 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S16x16 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S4096x16 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S4096x16 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S4096x16 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  bitsLt_bf16_f32 : FTy.bits .bf16 < FTy.bits .f32
  shapeCasts_S64_S1x64 : S64.ShapeCasts S1x64
  shapeCasts_S76_S1x76 : S76.ShapeCasts S1x76
  shapeCasts_S32_S1x32 : S32.ShapeCasts S1x32
  shapeCasts_S16_S1x16 : S16.ShapeCasts S1x16
  inb_S4096x64_S4096x64_0_0 : ∀ a, (![0, 0] : Fin 2 → Nat) a + S4096x64.size a ≤ S4096x64.size a
  h_S4096x64 : 0 < S4096x64.numel
  slices_S4096x64_o0_4_S4096x60 : S4096x64.Slices ![0, 4] S4096x60
  inb_S4096x16_S4096x16_0_0 : ∀ a, (![0, 0] : Fin 2 → Nat) a + S4096x16.size a ≤ S4096x16.size a
  h_S4096x16 : 0 < S4096x16.numel
  inb_S76x64_S76x64_0_0 : ∀ a, (![0, 0] : Fin 2 → Nat) a + S76x64.size a ≤ S76x64.size a
  h_S76x64 : 0 < S76x64.numel
  shapeCasts_S76x64_S76x64 : S76x64.ShapeCasts S76x64
  slices_S76x64_o0_0_S60x64 : S76x64.Slices ![0, 0] S60x64
  slices_S76x64_o60_0_S16x64 : S76x64.Slices ![60, 0] S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x76_S64x76_0_0 : ∀ a, (![0, 0] : Fin 2 → Nat) a + S64x76.size a ≤ S64x76.size a
  h_S64x76 : 0 < S64x76.numel
  shapeCasts_S64x76_S64x76 : S64x76.ShapeCasts S64x76
  inb_S1x76_S1x76_0_0 : ∀ a, (![0, 0] : Fin 2 → Nat) a + S1x76.size a ≤ S1x76.size a
  h_S1x76 : 0 < S1x76.numel
  shapeCasts_S1x76_S1x76 : S1x76.ShapeCasts S1x76
  broadcasts_S1x76_S4096x76 : S1x76.Broadcasts S4096x76
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  dot_S4096x60_S60x64_S4096x64_1_0_0_1_n_n_wf : DotDims.WF S4096x60 S60x64 S4096x64 [1] [0] [0] [1] [] []
  dot_S4096x16_S16x64_S4096x64_1_0_0_1_n_n_wf : DotDims.WF S4096x16 S16x64 S4096x64 [1] [0] [0] [1] [] []
  dot_S4096x64_S64x64_S4096x64_1_0_0_1_n_n_wf : DotDims.WF S4096x64 S64x64 S4096x64 [1] [0] [0] [1] [] []
  dot_S4096x64_S64x76_S4096x76_1_0_0_1_n_n_wf : DotDims.WF S4096x64 S64x76 S4096x76 [1] [0] [0] [1] [] []
  dot_S4096x76_S76x64_S4096x64_1_0_0_1_n_n_wf : DotDims.WF S4096x76 S76x64 S4096x64 [1] [0] [0] [1] [] []
  dot_S4096x64_S64x32_S4096x32_1_0_0_1_n_n_wf : DotDims.WF S4096x64 S64x32 S4096x32 [1] [0] [0] [1] [] []
  dot_S4096x32_S32x16_S4096x16_1_0_0_1_n_n_wf : DotDims.WF S4096x32 S32x16 S4096x16 [1] [0] [0] [1] [] []
  dot_S4096x16_S16x16_S4096x16_1_0_0_1_n_n_wf : DotDims.WF S4096x16 S16x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S1048576x64.size a
  hwx0_0 : ∀ i : grid0.Coords, EltTy.bits .f32 = 32 ∨ (Rect.block (s := S1048576x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S1048576x16.size a
  hwx0_1 : ∀ i : grid0.Coords, EltTy.bits .f32 = 32 ∨ (Rect.block (s := S1048576x16) S4096x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S1048576x16.size a
  hwx0_2 : ∀ i : grid0.Coords, EltTy.bits .f32 = 32 ∨ (Rect.block (s := S1048576x16) S4096x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S76x64.size a ≤ S76x64.size a
  hwx0_3 : ∀ i : grid0.Coords, EltTy.bits .bf16 = 32 ∨ (Rect.block (s := S76x64) S76x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x76.size a ≤ S64x76.size a
  hwx0_7 : ∀ i : grid0.Coords, EltTy.bits .bf16 = 32 ∨ (Rect.block (s := S64x76) S64x76.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x76.size a ≤ S1x76.size a
  hwx0_8 : ∀ i : grid0.Coords, EltTy.bits .f32 = 32 ∨ (Rect.block (s := S1x76) S1x76.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S76x64.size a ≤ S76x64.size a
  hwx0_9 : ∀ i : grid0.Coords, EltTy.bits .bf16 = 32 ∨ (Rect.block (s := S76x64) S76x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .bf16 = 32 ∨ (Rect.block (s := S64x64) S64x64.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x32.size a ≤ S64x32.size a
  hwx0_13 : ∀ i : grid0.Coords, EltTy.bits .bf16 = 32 ∨ (Rect.block (s := S64x32) S64x32.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x32.size a ≤ S1x32.size a
  hwx0_14 : ∀ i : grid0.Coords, EltTy.bits .f32 = 32 ∨ (Rect.block (s := S1x32) S1x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S32x16.size a ≤ S32x16.size a
  hwx0_15 : ∀ i : grid0.Coords, EltTy.bits .bf16 = 32 ∨ (Rect.block (s := S32x16) S32x16.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x16.size a ≤ S1x16.size a
  hwx0_16 : ∀ i : grid0.Coords, EltTy.bits .f32 = 32 ∨ (Rect.block (s := S1x16) S1x16.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S16x16.size a ≤ S16x16.size a
  hwx0_17 : ∀ i : grid0.Coords, EltTy.bits .bf16 = 32 ∨ (Rect.block (s := S16x16) S16x16.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x16.size a ≤ S1x16.size a
  hwx0_18 : ∀ i : grid0.Coords, EltTy.bits .f32 = 32 ∨ (Rect.block (s := S1x16) S1x16.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S16x16.size a ≤ S16x16.size a
  hwx0_19 : ∀ i : grid0.Coords, EltTy.bits .bf16 = 32 ∨ (Rect.block (s := S16x16) S16x16.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x16.size a ≤ S1x16.size a
  hwx0_20 : ∀ i : grid0.Coords, EltTy.bits .f32 = 32 ∨ (Rect.block (s := S1x16) S1x16.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S4096x16.size a ≤ S1048576x16.size a
  hwx0_21 : ∀ i : grid0.Coords, EltTy.bits .f32 = 32 ∨ (Rect.block (s := S1048576x16) S4096x16.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S4096x16.size a ≤ S1048576x16.size a
  hwx0_22 : ∀ i : grid0.Coords, EltTy.bits .f32 = 32 ∨ (Rect.block (s := S1048576x16) S4096x16.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S4096x16.size a ≤ S1048576x16.size a
  hwx0_23 : ∀ i : grid0.Coords, EltTy.bits .f32 = 32 ∨ (Rect.block (s := S1048576x16) S4096x16.size (cc0_transform_23 i) (hinb0_23 i)).WholeWords (EltTy.packing .f32)

variable [Facts₀]

def dot_S4096x60_S60x64_S4096x64_1_0_0_1_n_n : DotDims S4096x60 S60x64 S4096x64 where
  lhsContracting := [1]
  rhsContracting := [0]
  lhsNonContracting := [0]
  rhsNonContracting := [1]
  lhsBatch := []
  rhsBatch := []
  wf := dot_S4096x60_S60x64_S4096x64_1_0_0_1_n_n_wf
def dot_S4096x16_S16x64_S4096x64_1_0_0_1_n_n : DotDims S4096x16 S16x64 S4096x64 where
  lhsContracting := [1]
  rhsContracting := [0]
  lhsNonContracting := [0]
  rhsNonContracting := [1]
  lhsBatch := []
  rhsBatch := []
  wf := dot_S4096x16_S16x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x76_S4096x76_1_0_0_1_n_n : DotDims S4096x64 S64x76 S4096x76 where
  lhsContracting := [1]
  rhsContracting := [0]
  lhsNonContracting := [0]
  rhsNonContracting := [1]
  lhsBatch := []
  rhsBatch := []
  wf := dot_S4096x64_S64x76_S4096x76_1_0_0_1_n_n_wf
def dot_S4096x76_S76x64_S4096x64_1_0_0_1_n_n : DotDims S4096x76 S76x64 S4096x64 where
  lhsContracting := [1]
  rhsContracting := [0]
  lhsNonContracting := [0]
  rhsNonContracting := [1]
  lhsBatch := []
  rhsBatch := []
  wf := dot_S4096x76_S76x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf
def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S76x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S64x76.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x76.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S76x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S64x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S1x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v6) S32x16.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v15) S1x16.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v7) S16x16.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v16) S1x16.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v8) S16x16.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v17) S1x16.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v18_0) S4096x16.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v18_1) S4096x16.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v18_2) S4096x16.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S1048576x16 : Shape := ⟨2, ![1048576, 16]⟩
abbrev S76x64 : Shape := ⟨2, ![76, 64]⟩
abbrev S64 : Shape := ⟨1, ![64]⟩
abbrev S64x64 : Shape := ⟨2, ![64, 64]⟩
abbrev S64x76 : Shape := ⟨2, ![64, 76]⟩
abbrev S76 : Shape := ⟨1, ![76]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S60 : Shape := ⟨1, ![60]⟩
abbrev S_ : Shape := ⟨0, ![]⟩
abbrev S60x1 : Shape := ⟨2, ![60, 1]⟩
abbrev S1048576x60 : Shape := ⟨2, ![1048576, 60]⟩
abbrev S1048576x76 : Shape := ⟨2, ![1048576, 76]⟩
abbrev S1x64 : Shape := ⟨2, ![1, 64]⟩
abbrev S1x76 : Shape := ⟨2, ![1, 76]⟩
abbrev S1048576x32 : Shape := ⟨2, ![1048576, 32]⟩
abbrev S1x32 : Shape := ⟨2, ![1, 32]⟩
abbrev S1x16 : Shape := ⟨2, ![1, 16]⟩

abbrev nBuf : Space → Nat
  | .hbm => 98
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576x16, .f32⟩
  | .hbm, ⟨2, _⟩ => ⟨S1048576x16, .f32⟩
  | .hbm, ⟨3, _⟩ => ⟨S76x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x76, .f32⟩
  | .hbm, ⟨8, _⟩ => ⟨S76, .f32⟩
  | .hbm, ⟨9, _⟩ => ⟨S76x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x32, .f32⟩
  | .hbm, ⟨14, _⟩ => ⟨S32, .f32⟩
  | .hbm, ⟨15, _⟩ => ⟨S32x16, .f32⟩
  | .hbm, ⟨16, _⟩ => ⟨S16, .f32⟩
  | .hbm, ⟨17, _⟩ => ⟨S16x16, .f32⟩
  | .hbm, ⟨18, _⟩ => ⟨S16, .f32⟩
  | .hbm, ⟨19, _⟩ => ⟨S16x16, .f32⟩
  | .hbm, ⟨20, _⟩ => ⟨S16, .f32⟩
  | .hbm, ⟨21, _⟩ => ⟨S60, .i32⟩
  | .hbm, ⟨22, _⟩ => ⟨S60, .i1⟩
  | .hbm, ⟨23, _⟩ => ⟨S_, .i32⟩
  | .hbm, ⟨24, _⟩ => ⟨S60, .i32⟩
  | .hbm, ⟨25, _⟩ => ⟨S60, .i32⟩
  | .hbm, ⟨26, _⟩ => ⟨S60, .i32⟩
  | .hbm, ⟨27, _⟩ => ⟨S60x1, .i32⟩
  | .hbm, ⟨28, _⟩ => ⟨S1048576x60, .f32⟩
  | .hbm, ⟨29, _⟩ => ⟨S1048576x76, .f32⟩
  | .hbm, ⟨30, _⟩ => ⟨S1048576x64, .f32⟩
  | .hbm, ⟨31, _⟩ => ⟨S1x64, .f32⟩
  | .hbm, ⟨32, _⟩ => ⟨S1048576x64, .f32⟩
  | .hbm, ⟨33, _⟩ => ⟨S1048576x64, .f32⟩
  | .hbm, ⟨34, _⟩ => ⟨S1048576x64, .f32⟩
  | .hbm, ⟨35, _⟩ => ⟨S1048576x64, .f32⟩
  | .hbm, ⟨36, _⟩ => ⟨S1x64, .f32⟩
  | .hbm, ⟨37, _⟩ => ⟨S1048576x64, .f32⟩
  | .hbm, ⟨38, _⟩ => ⟨S1048576x64, .f32⟩
  | .hbm, ⟨39, _⟩ => ⟨S1048576x64, .f32⟩
  | .hbm, ⟨40, _⟩ => ⟨S1048576x76, .f32⟩
  | .hbm, ⟨41, _⟩ => ⟨S1x76, .f32⟩
  | .hbm, ⟨42, _⟩ => ⟨S1048576x76, .f32⟩
  | .hbm, ⟨43, _⟩ => ⟨S1048576x76, .f32⟩
  | .hbm, ⟨44, _⟩ => ⟨S1048576x64, .f32⟩
  | .hbm, ⟨45, _⟩ => ⟨S1x64, .f32⟩
  | .hbm, ⟨46, _⟩ => ⟨S1048576x64, .f32⟩
  | .hbm, ⟨47, _⟩ => ⟨S1048576x64, .f32⟩
  | .hbm, ⟨48, _⟩ => ⟨S_, .f32⟩
  | .hbm, ⟨49, _⟩ => ⟨S1048576x64, .f32⟩
  | .hbm, ⟨50, _⟩ => ⟨S1048576x64, .f32⟩
  | .hbm, ⟨51, _⟩ => ⟨S1048576x64, .f32⟩
  | .hbm, ⟨52, _⟩ => ⟨S1x64, .f32⟩
  | .hbm, ⟨53, _⟩ => ⟨S1048576x64, .f32⟩
  | .hbm, ⟨54, _⟩ => ⟨S1048576x64, .f32⟩
  | .hbm, ⟨55, _⟩ => ⟨S_, .f32⟩
  | .hbm, ⟨56, _⟩ => ⟨S1048576x64, .f32⟩
  | .hbm, ⟨57, _⟩ => ⟨S1048576x64, .f32⟩
  | .hbm, ⟨58, _⟩ => ⟨S1048576x32, .f32⟩
  | .hbm, ⟨59, _⟩ => ⟨S1x32, .f32⟩
  | .hbm, ⟨60, _⟩ => ⟨S1048576x32, .f32⟩
  | .hbm, ⟨61, _⟩ => ⟨S1048576x32, .f32⟩
  | .hbm, ⟨62, _⟩ => ⟨S_, .f32⟩
  | .hbm, ⟨63, _⟩ => ⟨S1048576x32, .f32⟩
  | .hbm, ⟨64, _⟩ => ⟨S1048576x32, .f32⟩
  | .hbm, ⟨65, _⟩ => ⟨S1048576x16, .f32⟩
  | .hbm, ⟨66, _⟩ => ⟨S1x16, .f32⟩
  | .hbm, ⟨67, _⟩ => ⟨S1048576x16, .f32⟩
  | .hbm, ⟨68, _⟩ => ⟨S1048576x16, .f32⟩
  | .hbm, ⟨69, _⟩ => ⟨S1048576x16, .f32⟩
  | .hbm, ⟨70, _⟩ => ⟨S1x16, .f32⟩
  | .hbm, ⟨71, _⟩ => ⟨S1048576x16, .f32⟩
  | .hbm, ⟨72, _⟩ => ⟨S1048576x16, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S1048576x16, .f32⟩
  | .hbm, ⟨77, _⟩ => ⟨S1048576x16, .f32⟩
  | .hbm, ⟨78, _⟩ => ⟨S_, .f32⟩
  | .hbm, ⟨79, _⟩ => ⟨S1048576x16, .f32⟩
  | .hbm, ⟨80, _⟩ => ⟨S1048576x16, .f32⟩
  | .hbm, ⟨81, _⟩ => ⟨S1048576x16, .f32⟩
  | .hbm, ⟨82, _⟩ => ⟨S1048576x16, .f32⟩
  | .hbm, ⟨83, _⟩ => ⟨S1x16, .f32⟩
  | .hbm, ⟨84, _⟩ => ⟨S1048576x16, .f32⟩
  | .hbm, ⟨85, _⟩ => ⟨S1048576x16, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S1048576x16, .f32⟩
  | .hbm, ⟨90, _⟩ => ⟨S1048576x16, .f32⟩
  | .hbm, ⟨91, _⟩ => ⟨S_, .f32⟩
  | .hbm, ⟨92, _⟩ => ⟨S1048576x16, .f32⟩
  | .hbm, ⟨93, _⟩ => ⟨S1048576x16, .f32⟩
  | .hbm, ⟨94, _⟩ => ⟨S1048576x16, .f32⟩
  | .hbm, ⟨95, _⟩ => ⟨S1048576x16, .f32⟩
  | .hbm, ⟨96, _⟩ => ⟨S1048576x16, .f32⟩
  | .hbm, ⟨97, _⟩ => ⟨S1048576x16, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_c_0 : Ref sig .tc := ⟨.hbm, 22, rfl⟩
abbrev main_c_1 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call0_cst : Ref sig .tc := ⟨.hbm, 48, rfl⟩
abbrev main_call0_v0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call1_cst : Ref sig .tc := ⟨.hbm, 55, rfl⟩
abbrev main_call1_v0 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_call2_cst : Ref sig .tc := ⟨.hbm, 62, rfl⟩
abbrev main_call2_v0 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst : Ref sig .tc := ⟨.hbm, 73, rfl⟩
abbrev main_cst_2 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_3 : Ref sig .tc := ⟨.hbm, 86, rfl⟩
abbrev main_cst_4 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩

abbrev nD : Nat := 1
abbrev τ : Topo := Topo.v7x

variable {F : FTy → Type} [FloatOps F]

class Facts₀ : Prop where
  bcast_S_S60 : S_.BroadcastsInDim S60 (![] : Fin 0 → Fin S60.rank)
  bcast_S60_S60x1_0 : S60.BroadcastsInDim S60x1 (![0] : Fin 1 → Fin S60x1.rank)
  concatenates_S1048576x60_S1048576x16_S1048576x76_d1 : Shape.Concatenates [S1048576x60, S1048576x16] S1048576x76 1
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S76_S1x76_1 : S76.BroadcastsInDim S1x76 (![1] : Fin 1 → Fin S1x76.rank)
  bcast_S1x76_S1048576x76_0_1 : S1x76.BroadcastsInDim S1048576x76 (![0, 1] : Fin 2 → Fin S1048576x76.rank)
  bcast_S_S1048576x64 : S_.BroadcastsInDim S1048576x64 (![] : Fin 0 → Fin S1048576x64.rank)
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  bcast_S_S1048576x32 : S_.BroadcastsInDim S1048576x32 (![] : Fin 0 → Fin S1048576x32.rank)
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  bcast_S_S1048576x16 : S_.BroadcastsInDim S1048576x16 (![] : Fin 0 → Fin S1048576x16.rank)
  gather_S1048576x64_S60x1_S1048576x60_0_1_n_n_1_1_10485761_wf : GatherDims.WF S1048576x64 S60x1 S1048576x60 [0] [1] [] [1] [] 1 ![1048576, 1]
  dot_S1048576x76_S76x64_S1048576x64_1_0_0_1_n_n_wf : DotDims.WF S1048576x76 S76x64 S1048576x64 [1] [0] [0] [1] [] []
  dot_S1048576x64_S64x64_S1048576x64_1_0_0_1_n_n_wf : DotDims.WF S1048576x64 S64x64 S1048576x64 [1] [0] [0] [1] [] []
  dot_S1048576x64_S64x76_S1048576x76_1_0_0_1_n_n_wf : DotDims.WF S1048576x64 S64x76 S1048576x76 [1] [0] [0] [1] [] []
  dot_S1048576x64_S64x32_S1048576x32_1_0_0_1_n_n_wf : DotDims.WF S1048576x64 S64x32 S1048576x32 [1] [0] [0] [1] [] []
  dot_S1048576x32_S32x16_S1048576x16_1_0_0_1_n_n_wf : DotDims.WF S1048576x32 S32x16 S1048576x16 [1] [0] [0] [1] [] []
  dot_S1048576x16_S16x16_S1048576x16_1_0_0_1_n_n_wf : DotDims.WF S1048576x16 S16x16 S1048576x16 [1] [0] [0] [1] [] []

variable [Facts₀]

def gather_S1048576x64_S60x1_S1048576x60_0_1_n_n_1_1_10485761 : GatherDims S1048576x64 S60x1 S1048576x60 where
  offsetDims := [0]
  collapsedSliceDims := [1]
  operandBatchingDims := []
  startIndicesBatchingDims := []
  startIndexMap := [1]
  indexVectorDim := 1
  sliceSizes := ![1048576, 1]
  wf := gather_S1048576x64_S60x1_S1048576x60_0_1_n_n_1_1_10485761_wf
def dot_S1048576x76_S76x64_S1048576x64_1_0_0_1_n_n : DotDims S1048576x76 S76x64 S1048576x64 where
  lhsContracting := [1]
  rhsContracting := [0]
  lhsNonContracting := [0]
  rhsNonContracting := [1]
  lhsBatch := []
  rhsBatch := []
  wf := dot_S1048576x76_S76x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x76_S1048576x76_1_0_0_1_n_n : DotDims S1048576x64 S64x76 S1048576x76 where
  lhsContracting := [1]
  rhsContracting := [0]
  lhsNonContracting := [0]
  rhsNonContracting := [1]
  lhsBatch := []
  rhsBatch := []
  wf := dot_S1048576x64_S64x76_S1048576x76_1_0_0_1_n_n_wf
def dot_S1048576x64_S64x32_S1048576x32_1_0_0_1_n_n : DotDims S1048576x64 S64x32 S1048576x32 where
  lhsContracting := [1]
  rhsContracting := [0]
  lhsNonContracting := [0]
  rhsNonContracting := [1]
  lhsBatch := []
  rhsBatch := []
  wf := dot_S1048576x64_S64x32_S1048576x32_1_0_0_1_n_n_wf
def dot_S1048576x32_S32x16_S1048576x16_1_0_0_1_n_n : DotDims S1048576x32 S32x16 S1048576x16 where
  lhsContracting := [1]
  rhsContracting := [0]
  lhsNonContracting := [0]
  rhsNonContracting := [1]
  lhsBatch := []
  rhsBatch := []
  wf := dot_S1048576x32_S32x16_S1048576x16_1_0_0_1_n_n_wf
def dot_S1048576x16_S16x16_S1048576x16_1_0_0_1_n_n : DotDims S1048576x16 S16x16 S1048576x16 where
  lhsContracting := [1]
  rhsContracting := [0]
  lhsNonContracting := [0]
  rhsNonContracting := [1]
  lhsBatch := []
  rhsBatch := []
  wf := dot_S1048576x16_S16x16_S1048576x16_1_0_0_1_n_n_wf

class Facts : Prop extends Facts₀ where

variable [Facts]
-- ==== Proof.Spec.lean ====
/-
  The network both programs compute, one row at a time, over the extended reals.

  A row of the observations (64 numbers) loses its first four entries, is followed by the row of `y` (16 numbers),
  and the 76 numbers pass through an embedding network (two tanh layers 76 → 64 → 64 and an affine layer 64 → 76)
  and an encoder (three rectified layers 76 → 64 → 64 → 32 and an affine layer 32 → 16). Two affine heads 16 → 16 read
  the encoder's output: the mean is the tanh of the first clipped to [-7.24, 7.24], the variance the exponential of the
  second clipped to [-5, 2], and the sample is mean + sqrt(variance) · eps. Every layer is `x ↦ x·W + b`: entry `q` is
  the sum over `k` of `x k * W k q`, plus `b q`.

  The one law that is needed beyond unfolding: a sum over the 76 columns of the joined row is the sum over the 60 kept
  observation columns plus the sum over the 16 columns of `y`. Sums over the extended reals are commutative and
  associative, so no finiteness is used.
-/
import Idealize.ShloMosaic.PureOps.Ideal
import Idealize.ShloMosaic.Lib.ValueIdx

noncomputable section

open scoped BigOperators

namespace Cert.Mlp

open Idealize.ShloMosaic Idealize.ShloMosaic.ValueIdx

/-- An a × b matrix of extended reals, indexed as the programs index their arrays. -/
abbrev Mat (a b : Nat) : Type := (⟨2, ![a, b]⟩ : Shape).Idx → EReal
/-- A vector of a extended reals. -/
abbrev Vc (a : Nat) : Type := (⟨1, ![a]⟩ : Shape).Idx → EReal

/-- Row `p` of a matrix. -/
def rowOf {a b : Nat} (X : Mat a b) (p : Fin a) : Fin b → EReal := fun k => X (ix2 p k)
/-- A matrix as a function of its two coordinates. -/
def matOf {a b : Nat} (X : Mat a b) : Fin a → Fin b → EReal := fun k q => X (ix2 k q)
/-- A vector as a function of its coordinate. -/
def vecOf {a : Nat} (v : Vc a) : Fin a → EReal := fun q => v (ix1 q)

theorem rowOf_apply {a b : Nat} (X : Mat a b) (p : Fin a) (k : Fin b) : rowOf X p k = X (ix2 p k) := rfl
theorem matOf_apply {a b : Nat} (X : Mat a b) (k : Fin a) (q : Fin b) : matOf X k q = X (ix2 k q) := rfl
theorem vecOf_apply {a : Nat} (v : Vc a) (q : Fin a) : vecOf v q = v (ix1 q) := rfl

/-- The affine layer `x ↦ x·W + b` on one row. -/
def lin {K N : Nat} (x : Fin K → EReal) (W : Fin K → Fin N → EReal) (b : Fin N → EReal) : Fin N → EReal :=
  fun q => (∑ k : Fin K, x k * W k q) + b q

theorem lin_apply {K N : Nat} (x : Fin K → EReal) (W : Fin K → Fin N → EReal) (b : Fin N → EReal) (q : Fin N) :
    lin x W b q = (∑ k : Fin K, x k * W k q) + b q := rfl

/-- The row the network reads: the observation row without its first four entries, then the row of `y`. -/
def joined (o : Fin 64 → EReal) (y : Fin 16 → EReal) : Fin 76 → EReal :=
  fun k => if h : k.val < 60 then o ⟨k.val + 4, by omega⟩ else y ⟨k.val - 60, by omega⟩

/-- A sum over the joined row's 76 columns is the sum over the 60 kept observation columns plus the sum over the 16
    columns of `y`, the weight's rows split at 60. -/
theorem splitSum (o : Fin 64 → EReal) (y : Fin 16 → EReal) (w : Fin 76 → EReal) :
    (∑ k : Fin 60, o ⟨k.val + 4, by omega⟩ * w ⟨k.val, by omega⟩)
      + (∑ k : Fin 16, y k * w ⟨60 + k.val, by omega⟩)
      = ∑ k : Fin 76, joined o y k * w k := by
  show _ = ∑ k : Fin (60 + 16), joined o y k * w k
  rw [Fin.sum_univ_add]
  congr 1

/-- The weights and biases of the eighteen affine maps, as functions of their coordinates. -/
structure Params where
  ew1 : Fin 76 → Fin 64 → EReal
  eb1 : Fin 64 → EReal
  ew2 : Fin 64 → Fin 64 → EReal
  eb2 : Fin 64 → EReal
  ew3 : Fin 64 → Fin 76 → EReal
  eb3 : Fin 76 → EReal
  cw1 : Fin 76 → Fin 64 → EReal
  cb1 : Fin 64 → EReal
  cw2 : Fin 64 → Fin 64 → EReal
  cb2 : Fin 64 → EReal
  cw3 : Fin 64 → Fin 32 → EReal
  cb3 : Fin 32 → EReal
  cw4 : Fin 32 → Fin 16 → EReal
  cb4 : Fin 16 → EReal
  mw : Fin 16 → Fin 16 → EReal
  mb : Fin 16 → EReal
  lw : Fin 16 → Fin 16 → EReal
  lb : Fin 16 → EReal

/-- The parameters read off the eighteen argument arrays. -/
def paramsOf (ew1 : Mat 76 64) (eb1 : Vc 64) (ew2 : Mat 64 64) (eb2 : Vc 64) (ew3 : Mat 64 76) (eb3 : Vc 76)
    (cw1 : Mat 76 64) (cb1 : Vc 64) (cw2 : Mat 64 64) (cb2 : Vc 64) (cw3 : Mat 64 32) (cb3 : Vc 32)
    (cw4 : Mat 32 16) (cb4 : Vc 16) (mw : Mat 16 16) (mb : Vc 16) (lw : Mat 16 16) (lb : Vc 16) : Params :=
  ⟨matOf ew1, vecOf eb1, matOf ew2, vecOf eb2, matOf ew3, vecOf eb3, matOf cw1, vecOf cb1, matOf cw2, vecOf cb2,
    matOf cw3, vecOf cb3, matOf cw4, vecOf cb4, matOf mw, vecOf mb, matOf lw, vecOf lb⟩

/-- The zero both programs rectify against. -/
abbrev zero : EReal := Ideal.ofBits .f32 0x00000000#32
/-- The clipping bounds, as the programs' words. -/
abbrev muLo : EReal := Ideal.ofBits .f32 0xC0E7AE14#32
abbrev muHi : EReal := Ideal.ofBits .f32 0x40E7AE14#32
abbrev sdLo : EReal := Ideal.ofBits .f32 0xC0A00000#32
abbrev sdHi : EReal := Ideal.ofBits .f32 0x40000000#32

/-- The embedding network's output row (76 numbers) from the joined row. -/
def embed (P : Params) (x : Fin 76 → EReal) : Fin 76 → EReal :=
  lin (fun k => Ideal.tanh (lin (fun k => Ideal.tanh (lin x P.ew1 P.eb1 k)) P.ew2 P.eb2 k)) P.ew3 P.eb3

/-- The encoder's output row (16 numbers) from the embedding's row. -/
def encode (P : Params) (h : Fin 76 → EReal) : Fin 16 → EReal :=
  lin (fun k => max (lin (fun k => max (lin (fun k => max (lin h P.cw1 P.cb1 k) zero) P.cw2 P.cb2 k) zero)
    P.cw3 P.cb3 k) zero) P.cw4 P.cb4

/-- The mean's row from the encoder's row. -/
def muRow (P : Params) (z : Fin 16 → EReal) : Fin 16 → EReal :=
  fun q => Ideal.tanh (min muHi (max muLo (lin z P.mw P.mb q)))

/-- The variance's row from the encoder's row. -/
def sdRow (P : Params) (z : Fin 16 → EReal) : Fin 16 → EReal :=
  fun q => Ideal.exp (min sdHi (max sdLo (lin z P.lw P.lb q)))

/-- The sample's row. -/
def sampleRow (P : Params) (z : Fin 16 → EReal) (e : Fin 16 → EReal) : Fin 16 → EReal :=
  fun q => muRow P z q + Ideal.sqrt (sdRow P z q) * e q

/-- The encoder's row for row `p` of the inputs. -/
def zOf (P : Params) (obs : Mat 1048576 64) (y : Mat 1048576 16) (p : Fin 1048576) : Fin 16 → EReal :=
  encode P (embed P (joined (rowOf obs p) (rowOf y p)))

/-- The three results as whole arrays. -/
def Gmu (P : Params) (obs : Mat 1048576 64) (y : Mat 1048576 16) : Mat 1048576 16 :=
  fun i => muRow P (zOf P obs y (i 0)) (i 1)
def Gsd (P : Params) (obs : Mat 1048576 64) (y : Mat 1048576 16) : Mat 1048576 16 :=
  fun i => sdRow P (zOf P obs y (i 0)) (i 1)
def Gsample (P : Params) (obs : Mat 1048576 64) (y : Mat 1048576 16) (eps : Mat 1048576 16) : Mat 1048576 16 :=
  fun i => sampleRow P (zOf P obs y (i 0)) (rowOf eps (i 0)) (i 1)

theorem Gmu_apply (P : Params) (obs : Mat 1048576 64) (y : Mat 1048576 16) (p : Fin 1048576) (q : Fin 16) :
    Gmu P obs y (ix2 p q) = muRow P (zOf P obs y p) q := rfl
theorem Gsd_apply (P : Params) (obs : Mat 1048576 64) (y : Mat 1048576 16) (p : Fin 1048576) (q : Fin 16) :
    Gsd P obs y (ix2 p q) = sdRow P (zOf P obs y p) q := rfl
theorem Gsample_apply (P : Params) (obs : Mat 1048576 64) (y : Mat 1048576 16) (eps : Mat 1048576 16)
    (p : Fin 1048576) (q : Fin 16) :
    Gsample P obs y eps (ix2 p q) = sampleRow P (zOf P obs y p) (rowOf eps p) q := rfl

end Cert.Mlp

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.KernelPay.lean ====
/-
  The kernel body's arithmetic read at one entry of a block of 4096 rows.

  The body's stored values are given as pure terms of the blocks it loads. Read at row r and column q, at the ideal
  instance (a change of float format is the identity, a product into the zero accumulator is the plain sum of products,
  tanh, exp and sqrt are the extended-real functions), each of them is the network of Spec.lean applied to row r of the
  observation block and of the y block: every layer's entry is the sum over k of the previous layer's row times the
  weight's column, plus the bias row's entry. The first layer is computed as two products, of the observation columns
  4..63 with the weight's rows 0..59 and of the y columns with the weight's rows 60..75; their sum is the product of the
  joined row with the whole weight (Cert.Mlp.splitSum).
-/
import proofs.«141094_j3762391351958_2_alg».proof.Proof.Gen.KernelIdeal.Skeleton
import proofs.«141094_j3762391351958_2_alg».proof.Proof.Spec
import proofs.«141094_j3762391351958_2_alg».proof.Proof.LibMatmulPlain
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx Cert.LibMatmulPlain Cert.Mlp

/-! ## Pointwise functions and re-laid pieces at an entry -/

theorem tanh_apply {s : Shape} {φ : FTy} (a : FVec Ideal s φ) (i : s.Idx) : tanh a i = Ideal.tanh (a i) := rfl
theorem exp_apply {s : Shape} {φ : FTy} (a : FVec Ideal s φ) (i : s.Idx) : exp a i = Ideal.exp (a i) := rfl
theorem sqrt_apply {s : Shape} {φ : FTy} (a : FVec Ideal s φ) (i : s.Idx) : sqrt a i = Ideal.sqrt (a i) := rfl

/-- The observation block without its first four columns: column j is the block's column j + 4. -/
theorem ego_apply (x : FVec Ideal S4096x64 .f32) (r : Fin 4096) (j : Fin 60) :
    extractStridedSlice S4096x60 ![0, 4] x slices_S4096x64_o0_4_S4096x60 (ix2 r j) = x (ix2 r ⟨j.val + 4, by omega⟩) :=
  slice2_axis1_apply 4 x slices_S4096x64_o0_4_S4096x60 r j ⟨j.val + 4, by omega⟩ (Nat.add_comm _ _)

/-- The first weight's rows 0..59. -/
theorem wtop_apply {φ : FTy} (w : FVec Ideal S76x64 φ) (j : Fin 60) (e : Fin 64) :
    extractStridedSlice S60x64 ![0, 0] w slices_S76x64_o0_0_S60x64 (ix2 j e) = w (ix2 ⟨j.val, by omega⟩ e) :=
  slice2_axis0_apply 0 w slices_S76x64_o0_0_S60x64 j e ⟨j.val, by omega⟩ (Nat.zero_add _).symm

/-- The first weight's rows 60..75. -/
theorem wbot_apply {φ : FTy} (w : FVec Ideal S76x64 φ) (j : Fin 16) (e : Fin 64) :
    extractStridedSlice S16x64 ![60, 0] w slices_S76x64_o60_0_S16x64 (ix2 j e) = w (ix2 ⟨60 + j.val, by omega⟩ e) :=
  slice2_axis0_apply 60 w slices_S76x64_o60_0_S16x64 j e ⟨60 + j.val, by omega⟩ rfl

/-! ## The body's eight matrix products at an entry -/

/-- The 4096 × 60 by 60 × 64 product into the zero accumulator at entry (p, q). -/
theorem mm_60_64 {φ₁ φ₂ : FTy} (l : FVec Ideal S4096x60 φ₁) (w : FVec Ideal S60x64 φ₂) (p : Fin 4096) (q : Fin 64) :
    matmul dot_S4096x60_S60x64_S4096x64_1_0_0_1_n_n none l w (constant (F := Ideal) S4096x64 .f32 0x00000000#32) (ix2 p q)
      = ∑ k : Fin 60, l (ix2 p k) * w (ix2 k q) :=
  matmul_plain_zero_apply dot_S4096x60_S60x64_S4096x64_1_0_0_1_n_n rfl none l w p q

/-- The 4096 × 16 by 16 × 64 product into the zero accumulator at entry (p, q). -/
theorem mm_16_64 {φ₁ φ₂ : FTy} (l : FVec Ideal S4096x16 φ₁) (w : FVec Ideal S16x64 φ₂) (p : Fin 4096) (q : Fin 64) :
    matmul dot_S4096x16_S16x64_S4096x64_1_0_0_1_n_n none l w (constant (F := Ideal) S4096x64 .f32 0x00000000#32) (ix2 p q)
      = ∑ k : Fin 16, l (ix2 p k) * w (ix2 k q) :=
  matmul_plain_zero_apply dot_S4096x16_S16x64_S4096x64_1_0_0_1_n_n rfl none l w p q

/-- The 4096 × 64 by 64 × 64 product into the zero accumulator at entry (p, q). -/
theorem mm_64_64 {φ₁ φ₂ : FTy} (l : FVec Ideal S4096x64 φ₁) (w : FVec Ideal S64x64 φ₂) (p : Fin 4096) (q : Fin 64) :
    matmul dot_S4096x64_S64x64_S4096x64_1_0_0_1_n_n none l w (constant (F := Ideal) S4096x64 .f32 0x00000000#32) (ix2 p q)
      = ∑ k : Fin 64, l (ix2 p k) * w (ix2 k q) :=
  matmul_plain_zero_apply dot_S4096x64_S64x64_S4096x64_1_0_0_1_n_n rfl none l w p q

/-- The 4096 × 64 by 64 × 76 product into the zero accumulator at entry (p, q). -/
theorem mm_64_76 {φ₁ φ₂ : FTy} (l : FVec Ideal S4096x64 φ₁) (w : FVec Ideal S64x76 φ₂) (p : Fin 4096) (q : Fin 76) :
    matmul dot_S4096x64_S64x76_S4096x76_1_0_0_1_n_n none l w (constant (F := Ideal) S4096x76 .f32 0x00000000#32) (ix2 p q)
      = ∑ k : Fin 64, l (ix2 p k) * w (ix2 k q) :=
  matmul_plain_zero_apply dot_S4096x64_S64x76_S4096x76_1_0_0_1_n_n rfl none l w p q

/-- The 4096 × 76 by 76 × 64 product into the zero accumulator at entry (p, q). -/
theorem mm_76_64 {φ₁ φ₂ : FTy} (l : FVec Ideal S4096x76 φ₁) (w : FVec Ideal S76x64 φ₂) (p : Fin 4096) (q : Fin 64) :
    matmul dot_S4096x76_S76x64_S4096x64_1_0_0_1_n_n none l w (constant (F := Ideal) S4096x64 .f32 0x00000000#32) (ix2 p q)
      = ∑ k : Fin 76, l (ix2 p k) * w (ix2 k q) :=
  matmul_plain_zero_apply dot_S4096x76_S76x64_S4096x64_1_0_0_1_n_n rfl none l w p q

/-- The 4096 × 64 by 64 × 32 product into the zero accumulator at entry (p, q). -/
theorem mm_64_32 {φ₁ φ₂ : FTy} (l : FVec Ideal S4096x64 φ₁) (w : FVec Ideal S64x32 φ₂) (p : Fin 4096) (q : Fin 32) :
    matmul dot_S4096x64_S64x32_S4096x32_1_0_0_1_n_n none l w (constant (F := Ideal) S4096x32 .f32 0x00000000#32) (ix2 p q)
      = ∑ k : Fin 64, l (ix2 p k) * w (ix2 k q) :=
  matmul_plain_zero_apply dot_S4096x64_S64x32_S4096x32_1_0_0_1_n_n rfl none l w p q

/-- The 4096 × 32 by 32 × 16 product into the zero accumulator at entry (p, q). -/
theorem mm_32_16 {φ₁ φ₂ : FTy} (l : FVec Ideal S4096x32 φ₁) (w : FVec Ideal S32x16 φ₂) (p : Fin 4096) (q : Fin 16) :
    matmul dot_S4096x32_S32x16_S4096x16_1_0_0_1_n_n none l w (constant (F := Ideal) S4096x16 .f32 0x00000000#32) (ix2 p q)
      = ∑ k : Fin 32, l (ix2 p k) * w (ix2 k q) :=
  matmul_plain_zero_apply dot_S4096x32_S32x16_S4096x16_1_0_0_1_n_n rfl none l w p q

/-- The 4096 × 16 by 16 × 16 product into the zero accumulator at entry (p, q). -/
theorem mm_16_16 {φ₁ φ₂ : FTy} (l : FVec Ideal S4096x16 φ₁) (w : FVec Ideal S16x16 φ₂) (p : Fin 4096) (q : Fin 16) :
    matmul dot_S4096x16_S16x16_S4096x16_1_0_0_1_n_n none l w (constant (F := Ideal) S4096x16 .f32 0x00000000#32) (ix2 p q)
      = ∑ k : Fin 16, l (ix2 p k) * w (ix2 k q) :=
  matmul_plain_zero_apply dot_S4096x16_S16x16_S4096x16_1_0_0_1_n_n rfl none l w p q

/-! ## The parameters as the body's loaded blocks give them -/

/-- The network's parameters read off the weight blocks and the bias rows the body loads. -/
def blockParams (ew1 : FVec Ideal S76x64 .bf16) (eb1 : FVec Ideal S1x64 .f32) (ew2 : FVec Ideal S64x64 .bf16) (eb2 : FVec Ideal S1x64 .f32)
    (ew3 : FVec Ideal S64x76 .bf16) (eb3 : FVec Ideal S1x76 .f32) (cw1 : FVec Ideal S76x64 .bf16) (cb1 : FVec Ideal S1x64 .f32)
    (cw2 : FVec Ideal S64x64 .bf16) (cb2 : FVec Ideal S1x64 .f32) (cw3 : FVec Ideal S64x32 .bf16) (cb3 : FVec Ideal S1x32 .f32)
    (cw4 : FVec Ideal S32x16 .bf16) (cb4 : FVec Ideal S1x16 .f32) (mw : FVec Ideal S16x16 .bf16) (mb : FVec Ideal S1x16 .f32)
    (lw : FVec Ideal S16x16 .bf16) (lb : FVec Ideal S1x16 .f32) : Params :=
  ⟨matOf ew1, rowOf eb1 0, matOf ew2, rowOf eb2 0, matOf ew3, rowOf eb3 0, matOf cw1, rowOf cb1 0, matOf cw2, rowOf cb2 0,
    matOf cw3, rowOf cb3 0, matOf cw4, rowOf cb4 0, matOf mw, rowOf mb 0, matOf lw, rowOf lb 0⟩

/-! ## The embedding network -/

/-- The first stored-through value (the embedding's output, rounded on its way into the next product) at (r, q). -/
theorem pay5_apply (v0 : Vec Ideal S4096x64 .f32) (v2 : Vec Ideal S4096x16 .f32) (v3 : Vec Ideal S76x64 .bf16) (v12 : Vec Ideal S1x64 .f32)
    (v17 : Vec Ideal S64x64 .bf16) (v21 : Vec Ideal S1x64 .f32) (v26 : Vec Ideal S64x76 .bf16) (v30 : Vec Ideal S1x76 .f32)
    (r : Fin 4096) (q : Fin 76) :
    k0_pay5 v0 v2 v3 v12 v17 v21 v26 v30 (ix2 r q)
      = lin (fun k => Ideal.tanh (lin (fun k => Ideal.tanh (lin (joined (rowOf v0 r) (rowOf v2 r)) (matOf v3) (rowOf v12 0) k))
          (matOf v17) (rowOf v21 0) k)) (matOf v26) (rowOf v30 0) q := by
  unfold k0_pay5
  simp only [shapeCast_self, truncf_apply, addf_apply, tanh_apply, broadcastTo_1b_ab_apply, mm_60_64, mm_16_64, mm_64_64, mm_64_76,
    ego_apply, wtop_apply, wbot_apply]
  simp only [lin_apply, ← splitSum, rowOf_apply, matOf_apply]

/-! ## The encoder -/

/-- The encoder's output (before the two heads) at (r, q), from the embedding's rounded output `h` and the encoder's
    first weight `w`. -/
theorem pay6_apply (w : FVec Ideal S76x64 .bf16) (h : FVec Ideal S4096x76 .bf16) (v38 : Vec Ideal S1x64 .f32) (v44 : Vec Ideal S64x64 .bf16)
    (v48 : Vec Ideal S1x64 .f32) (v54 : Vec Ideal S64x32 .bf16) (v58 : Vec Ideal S1x32 .f32) (v64 : Vec Ideal S32x16 .bf16)
    (v68 : Vec Ideal S1x16 .f32) (r : Fin 4096) (q : Fin 16) :
    k0_pay6 w h v38 v44 v48 v54 v58 v64 v68 (ix2 r q)
      = lin (fun k => max (lin (fun k => max (lin (fun k => max (lin (rowOf h r) (matOf w) (rowOf v38 0) k) zero)
          (matOf v44) (rowOf v48 0) k) zero) (matOf v54) (rowOf v58 0) k) zero) (matOf v64) (rowOf v68 0) q := by
  unfold k0_pay6
  simp only [shapeCast_self, truncf_apply, addf_apply, maximumf_apply, broadcast_apply, broadcastTo_1b_ab_apply, mm_76_64, mm_64_64,
    mm_64_32, mm_32_16]
  rfl

/-! ## The two heads and the sample -/

/-- The mean at (r, q) from the encoder's output `z`. -/
theorem pay1_apply (z : FVec Ideal S4096x16 .f32) (w : FVec Ideal S16x16 .bf16) (b : Vec Ideal S1x16 .f32) (r : Fin 4096) (q : Fin 16) :
    k0_pay1 z w b (ix2 r q) = Ideal.tanh (min muHi (max muLo (lin (rowOf z r) (matOf w) (rowOf b 0) q))) := by
  unfold k0_pay1
  simp only [shapeCast_self, truncf_apply, addf_apply, maximumf_apply, minimumf_apply, tanh_apply, broadcast_apply,
    broadcastTo_1b_ab_apply, mm_16_16]
  rfl

/-- The variance at (r, q) from the encoder's output `z`. -/
theorem pay2_apply (z : FVec Ideal S4096x16 .f32) (w : Vec Ideal S16x16 .bf16) (b : Vec Ideal S1x16 .f32) (r : Fin 4096) (q : Fin 16) :
    k0_pay2 z w b (ix2 r q) = Ideal.exp (min sdHi (max sdLo (lin (rowOf z r) (matOf w) (rowOf b 0) q))) := by
  unfold k0_pay2
  simp only [shapeCast_self, truncf_apply, addf_apply, maximumf_apply, minimumf_apply, exp_apply, broadcast_apply,
    broadcastTo_1b_ab_apply, mm_16_16]
  rfl

/-- The sample at (r, q): the mean plus the variance's square root times the noise. -/
theorem pay3_apply (z : FVec Ideal S4096x16 .f32) (w : FVec Ideal S16x16 .bf16) (b : Vec Ideal S1x16 .f32) (w' : Vec Ideal S16x16 .bf16)
    (b' : Vec Ideal S1x16 .f32) (e : Vec Ideal S4096x16 .f32) (r : Fin 4096) (q : Fin 16) :
    k0_pay3 z w b w' b' e (ix2 r q) = k0_pay1 z w b (ix2 r q) + Ideal.sqrt (k0_pay2 z w' b' (ix2 r q)) * e (ix2 r q) := rfl

/-! ## The three stored values as the network of the block's rows -/

theorem pay4_eq (x : Vec Ideal S76x64 .bf16) : k0_pay4 x = x := shapeCast_self _ _
theorem pay7_eq (x : Vec Ideal S16x16 .bf16) : k0_pay7 x = x := shapeCast_self _ _

/-- Row r of the encoder's output is the encoder of the embedding of the joined row r. -/
theorem z_row (x0 : Vec Ideal S4096x64 .f32) (x1 : Vec Ideal S4096x16 .f32) (x3 : Vec Ideal S76x64 .bf16) (x4 : Vec Ideal S1x64 .f32)
    (x5 : Vec Ideal S64x64 .bf16) (x6 : Vec Ideal S1x64 .f32) (x7 : Vec Ideal S64x76 .bf16) (x8 : Vec Ideal S1x76 .f32)
    (x9 : Vec Ideal S76x64 .bf16) (x10 : Vec Ideal S1x64 .f32) (x11 : Vec Ideal S64x64 .bf16) (x12 : Vec Ideal S1x64 .f32)
    (x13 : Vec Ideal S64x32 .bf16) (x14 : Vec Ideal S1x32 .f32) (x15 : Vec Ideal S32x16 .bf16) (x16 : Vec Ideal S1x16 .f32)
    (x17 : Vec Ideal S16x16 .bf16) (x18 : Vec Ideal S1x16 .f32) (x19 : Vec Ideal S16x16 .bf16) (x20 : Vec Ideal S1x16 .f32) (r : Fin 4096) :
    rowOf (k0_pay6 (k0_pay4 x9) (k0_pay5 x0 x1 x3 x4 x5 x6 x7 x8) x10 x11 x12 x13 x14 x15 x16) r
      = encode (blockParams x3 x4 x5 x6 x7 x8 x9 x10 x11 x12 x13 x14 x15 x16 x17 x18 x19 x20) (embed (blockParams x3 x4 x5 x6 x7 x8 x9 x10 x11 x12 x13 x14 x15 x16 x17 x18 x19 x20) (joined (rowOf x0 r) (rowOf x1 r))) := by
  funext k
  rw [rowOf_apply, pay6_apply, pay4_eq]
  have e5 : rowOf (k0_pay5 x0 x1 x3 x4 x5 x6 x7 x8) r = embed (blockParams x3 x4 x5 x6 x7 x8 x9 x10 x11 x12 x13 x14 x15 x16 x17 x18 x19 x20) (joined (rowOf x0 r) (rowOf x1 r)) := by
    funext k'
    rw [rowOf_apply, pay5_apply]
    rfl
  rw [e5]
  rfl

/-- The mean the body stores, at (r, q). -/
theorem mu_block (x0 : Vec Ideal S4096x64 .f32) (x1 : Vec Ideal S4096x16 .f32) (x3 : Vec Ideal S76x64 .bf16) (x4 : Vec Ideal S1x64 .f32)
    (x5 : Vec Ideal S64x64 .bf16) (x6 : Vec Ideal S1x64 .f32) (x7 : Vec Ideal S64x76 .bf16) (x8 : Vec Ideal S1x76 .f32)
    (x9 : Vec Ideal S76x64 .bf16) (x10 : Vec Ideal S1x64 .f32) (x11 : Vec Ideal S64x64 .bf16) (x12 : Vec Ideal S1x64 .f32)
    (x13 : Vec Ideal S64x32 .bf16) (x14 : Vec Ideal S1x32 .f32) (x15 : Vec Ideal S32x16 .bf16) (x16 : Vec Ideal S1x16 .f32)
    (x17 : Vec Ideal S16x16 .bf16) (x18 : Vec Ideal S1x16 .f32) (x19 : Vec Ideal S16x16 .bf16) (x20 : Vec Ideal S1x16 .f32) (r : Fin 4096) (q : Fin 16) :
    k0_pay1 (k0_pay6 (k0_pay4 x9) (k0_pay5 x0 x1 x3 x4 x5 x6 x7 x8) x10 x11 x12 x13 x14 x15 x16) (k0_pay7 x17) x18 (ix2 r q)
      = muRow (blockParams x3 x4 x5 x6 x7 x8 x9 x10 x11 x12 x13 x14 x15 x16 x17 x18 x19 x20) (encode (blockParams x3 x4 x5 x6 x7 x8 x9 x10 x11 x12 x13 x14 x15 x16 x17 x18 x19 x20) (embed (blockParams x3 x4 x5 x6 x7 x8 x9 x10 x11 x12 x13 x14 x15 x16 x17 x18 x19 x20) (joined (rowOf x0 r) (rowOf x1 r)))) q := by
  rw [pay1_apply, z_row, pay7_eq]
  rfl

/-- The variance the body stores, at (r, q). -/
theorem sd_block (x0 : Vec Ideal S4096x64 .f32) (x1 : Vec Ideal S4096x16 .f32) (x3 : Vec Ideal S76x64 .bf16) (x4 : Vec Ideal S1x64 .f32)
    (x5 : Vec Ideal S64x64 .bf16) (x6 : Vec Ideal S1x64 .f32) (x7 : Vec Ideal S64x76 .bf16) (x8 : Vec Ideal S1x76 .f32)
    (x9 : Vec Ideal S76x64 .bf16) (x10 : Vec Ideal S1x64 .f32) (x11 : Vec Ideal S64x64 .bf16) (x12 : Vec Ideal S1x64 .f32)
    (x13 : Vec Ideal S64x32 .bf16) (x14 : Vec Ideal S1x32 .f32) (x15 : Vec Ideal S32x16 .bf16) (x16 : Vec Ideal S1x16 .f32)
    (x17 : Vec Ideal S16x16 .bf16) (x18 : Vec Ideal S1x16 .f32) (x19 : Vec Ideal S16x16 .bf16) (x20 : Vec Ideal S1x16 .f32) (r : Fin 4096) (q : Fin 16) :
    k0_pay2 (k0_pay6 (k0_pay4 x9) (k0_pay5 x0 x1 x3 x4 x5 x6 x7 x8) x10 x11 x12 x13 x14 x15 x16) x19 x20 (ix2 r q)
      = sdRow (blockParams x3 x4 x5 x6 x7 x8 x9 x10 x11 x12 x13 x14 x15 x16 x17 x18 x19 x20) (encode (blockParams x3 x4 x5 x6 x7 x8 x9 x10 x11 x12 x13 x14 x15 x16 x17 x18 x19 x20) (embed (blockParams x3 x4 x5 x6 x7 x8 x9 x10 x11 x12 x13 x14 x15 x16 x17 x18 x19 x20) (joined (rowOf x0 r) (rowOf x1 r)))) q := by
  rw [pay2_apply, z_row]
  rfl

/-- The sample the body stores, at (r, q). -/
theorem sample_block (x0 : Vec Ideal S4096x64 .f32) (x1 : Vec Ideal S4096x16 .f32) (x3 : Vec Ideal S76x64 .bf16) (x4 : Vec Ideal S1x64 .f32)
    (x5 : Vec Ideal S64x64 .bf16) (x6 : Vec Ideal S1x64 .f32) (x7 : Vec Ideal S64x76 .bf16) (x8 : Vec Ideal S1x76 .f32)
    (x9 : Vec Ideal S76x64 .bf16) (x10 : Vec Ideal S1x64 .f32) (x11 : Vec Ideal S64x64 .bf16) (x12 : Vec Ideal S1x64 .f32)
    (x13 : Vec Ideal S64x32 .bf16) (x14 : Vec Ideal S1x32 .f32) (x15 : Vec Ideal S32x16 .bf16) (x16 : Vec Ideal S1x16 .f32)
    (x17 : Vec Ideal S16x16 .bf16) (x18 : Vec Ideal S1x16 .f32) (x19 : Vec Ideal S16x16 .bf16) (x20 : Vec Ideal S1x16 .f32) (x2 : Vec Ideal S4096x16 .f32) (r : Fin 4096) (q : Fin 16) :
    k0_pay3 (k0_pay6 (k0_pay4 x9) (k0_pay5 x0 x1 x3 x4 x5 x6 x7 x8) x10 x11 x12 x13 x14 x15 x16) (k0_pay7 x17) x18 x19 x20 x2 (ix2 r q)
      = sampleRow (blockParams x3 x4 x5 x6 x7 x8 x9 x10 x11 x12 x13 x14 x15 x16 x17 x18 x19 x20) (encode (blockParams x3 x4 x5 x6 x7 x8 x9 x10 x11 x12 x13 x14 x15 x16 x17 x18 x19 x20) (embed (blockParams x3 x4 x5 x6 x7 x8 x9 x10 x11 x12 x13 x14 x15 x16 x17 x18 x19 x20) (joined (rowOf x0 r) (rowOf x1 r)))) (rowOf x2 r) q := by
  rw [pay3_apply, mu_block, sd_block]
  rfl

end Cert.KernelIdeal.Pay

end
-- ==== Proof.KernelEntry.lean ====
/-
  What the region finds in the arrays the host wrote before it.

  Before the kernel is launched the host rounds the nine weight matrices to a narrower float format and re-lays the nine
  bias vectors [n] as rows [1, n]. At the ideal instance a change of format is the identity, so each rounded weight array
  holds the argument's numbers entry by entry, and the row at (0, q) holds the bias vector's entry q.
-/
import proofs.«141094_j3762391351958_2_alg».proof.Proof.Gen.KernelIdeal.Frame
import Idealize.ShloMosaic.Lib.StableHlo.Run
import Idealize.ShloMosaic.Lib.ValueLayout

noncomputable section

namespace Cert.KernelIdeal.Entry

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-! ## The rounded weights hold the arguments' numbers -/

theorem V_v0 (c : Dev nD) (i : S76x64.Idx) : V m c main_v0 i = m ((c : Thread nD τ).loc main_arg3) i := by
  have e : @Eq (FVec Ideal S76x64 .bf16) (V m c main_v0) (truncf .bf16 (m ((c : Thread nD τ).loc main_arg3)) bitsLt_bf16_f32) := by
    dsimp only [V, hostOps0]; after_results
  rw [e]; rfl

theorem V_v1 (c : Dev nD) (i : S64x64.Idx) : V m c main_v1 i = m ((c : Thread nD τ).loc main_arg5) i := by
  have e : @Eq (FVec Ideal S64x64 .bf16) (V m c main_v1) (truncf .bf16 (m ((c : Thread nD τ).loc main_arg5)) bitsLt_bf16_f32) := by
    dsimp only [V, hostOps0]; after_results
  rw [e]; rfl

theorem V_v2 (c : Dev nD) (i : S64x76.Idx) : V m c main_v2 i = m ((c : Thread nD τ).loc main_arg7) i := by
  have e : @Eq (FVec Ideal S64x76 .bf16) (V m c main_v2) (truncf .bf16 (m ((c : Thread nD τ).loc main_arg7)) bitsLt_bf16_f32) := by
    dsimp only [V, hostOps0]; after_results
  rw [e]; rfl

theorem V_v3 (c : Dev nD) (i : S76x64.Idx) : V m c main_v3 i = m ((c : Thread nD τ).loc main_arg9) i := by
  have e : @Eq (FVec Ideal S76x64 .bf16) (V m c main_v3) (truncf .bf16 (m ((c : Thread nD τ).loc main_arg9)) bitsLt_bf16_f32) := by
    dsimp only [V, hostOps0]; after_results
  rw [e]; rfl

theorem V_v4 (c : Dev nD) (i : S64x64.Idx) : V m c main_v4 i = m ((c : Thread nD τ).loc main_arg11) i := by
  have e : @Eq (FVec Ideal S64x64 .bf16) (V m c main_v4) (truncf .bf16 (m ((c : Thread nD τ).loc main_arg11)) bitsLt_bf16_f32) := by
    dsimp only [V, hostOps0]; after_results
  rw [e]; rfl

theorem V_v5 (c : Dev nD) (i : S64x32.Idx) : V m c main_v5 i = m ((c : Thread nD τ).loc main_arg13) i := by
  have e : @Eq (FVec Ideal S64x32 .bf16) (V m c main_v5) (truncf .bf16 (m ((c : Thread nD τ).loc main_arg13)) bitsLt_bf16_f32) := by
    dsimp only [V, hostOps0]; after_results
  rw [e]; rfl

theorem V_v6 (c : Dev nD) (i : S32x16.Idx) : V m c main_v6 i = m ((c : Thread nD τ).loc main_arg15) i := by
  have e : @Eq (FVec Ideal S32x16 .bf16) (V m c main_v6) (truncf .bf16 (m ((c : Thread nD τ).loc main_arg15)) bitsLt_bf16_f32) := by
    dsimp only [V, hostOps0]; after_results
  rw [e]; rfl

theorem V_v7 (c : Dev nD) (i : S16x16.Idx) : V m c main_v7 i = m ((c : Thread nD τ).loc main_arg17) i := by
  have e : @Eq (FVec Ideal S16x16 .bf16) (V m c main_v7) (truncf .bf16 (m ((c : Thread nD τ).loc main_arg17)) bitsLt_bf16_f32) := by
    dsimp only [V, hostOps0]; after_results
  rw [e]; rfl

theorem V_v8 (c : Dev nD) (i : S16x16.Idx) : V m c main_v8 i = m ((c : Thread nD τ).loc main_arg19) i := by
  have e : @Eq (FVec Ideal S16x16 .bf16) (V m c main_v8) (truncf .bf16 (m ((c : Thread nD τ).loc main_arg19)) bitsLt_bf16_f32) := by
    dsimp only [V, hostOps0]; after_results
  rw [e]; rfl

/-! ## The bias rows hold the bias vectors -/

theorem V_v9 (c : Dev nD) (q : Fin 64) : V m c main_v9 (ix2 (0 : Fin 1) q) = m ((c : Thread nD τ).loc main_arg4) (ix1 q) := by
  have e : @Eq (FVec Ideal S1x64 .f32) (V m c main_v9) (shapeCast S1x64 (m ((c : Thread nD τ).loc main_arg4)) shapeCasts_S64_S1x64) := by
    dsimp only [V, hostOps0]; after_results; rfl
  rw [e]; exact shapeCast_a_1a_apply _ _ _ _

theorem V_v10 (c : Dev nD) (q : Fin 64) : V m c main_v10 (ix2 (0 : Fin 1) q) = m ((c : Thread nD τ).loc main_arg6) (ix1 q) := by
  have e : @Eq (FVec Ideal S1x64 .f32) (V m c main_v10) (shapeCast S1x64 (m ((c : Thread nD τ).loc main_arg6)) shapeCasts_S64_S1x64) := by
    dsimp only [V, hostOps0]; after_results; rfl
  rw [e]; exact shapeCast_a_1a_apply _ _ _ _

theorem V_v11 (c : Dev nD) (q : Fin 76) : V m c main_v11 (ix2 (0 : Fin 1) q) = m ((c : Thread nD τ).loc main_arg8) (ix1 q) := by
  have e : @Eq (FVec Ideal S1x76 .f32) (V m c main_v11) (shapeCast S1x76 (m ((c : Thread nD τ).loc main_arg8)) shapeCasts_S76_S1x76) := by
    dsimp only [V, hostOps0]; after_results; rfl
  rw [e]; exact shapeCast_a_1a_apply _ _ _ _

theorem V_v12 (c : Dev nD) (q : Fin 64) : V m c main_v12 (ix2 (0 : Fin 1) q) = m ((c : Thread nD τ).loc main_arg10) (ix1 q) := by
  have e : @Eq (FVec Ideal S1x64 .f32) (V m c main_v12) (shapeCast S1x64 (m ((c : Thread nD τ).loc main_arg10)) shapeCasts_S64_S1x64) := by
    dsimp only [V, hostOps0]; after_results; rfl
  rw [e]; exact shapeCast_a_1a_apply _ _ _ _

theorem V_v13 (c : Dev nD) (q : Fin 64) : V m c main_v13 (ix2 (0 : Fin 1) q) = m ((c : Thread nD τ).loc main_arg12) (ix1 q) := by
  have e : @Eq (FVec Ideal S1x64 .f32) (V m c main_v13) (shapeCast S1x64 (m ((c : Thread nD τ).loc main_arg12)) shapeCasts_S64_S1x64) := by
    dsimp only [V, hostOps0]; after_results; rfl
  rw [e]; exact shapeCast_a_1a_apply _ _ _ _

theorem V_v14 (c : Dev nD) (q : Fin 32) : V m c main_v14 (ix2 (0 : Fin 1) q) = m ((c : Thread nD τ).loc main_arg14) (ix1 q) := by
  have e : @Eq (FVec Ideal S1x32 .f32) (V m c main_v14) (shapeCast S1x32 (m ((c : Thread nD τ).loc main_arg14)) shapeCasts_S32_S1x32) := by
    dsimp only [V, hostOps0]; after_results; rfl
  rw [e]; exact shapeCast_a_1a_apply _ _ _ _

theorem V_v15 (c : Dev nD) (q : Fin 16) : V m c main_v15 (ix2 (0 : Fin 1) q) = m ((c : Thread nD τ).loc main_arg16) (ix1 q) := by
  have e : @Eq (FVec Ideal S1x16 .f32) (V m c main_v15) (shapeCast S1x16 (m ((c : Thread nD τ).loc main_arg16)) shapeCasts_S16_S1x16) := by
    dsimp only [V, hostOps0]; after_results; rfl
  rw [e]; exact shapeCast_a_1a_apply _ _ _ _

theorem V_v16 (c : Dev nD) (q : Fin 16) : V m c main_v16 (ix2 (0 : Fin 1) q) = m ((c : Thread nD τ).loc main_arg18) (ix1 q) := by
  have e : @Eq (FVec Ideal S1x16 .f32) (V m c main_v16) (shapeCast S1x16 (m ((c : Thread nD τ).loc main_arg18)) shapeCasts_S16_S1x16) := by
    dsimp only [V, hostOps0]; after_results; rfl
  rw [e]; exact shapeCast_a_1a_apply _ _ _ _

theorem V_v17 (c : Dev nD) (q : Fin 16) : V m c main_v17 (ix2 (0 : Fin 1) q) = m ((c : Thread nD τ).loc main_arg20) (ix1 q) := by
  have e : @Eq (FVec Ideal S1x16 .f32) (V m c main_v17) (shapeCast S1x16 (m ((c : Thread nD τ).loc main_arg20)) shapeCasts_S16_S1x16) := by
    dsimp only [V, hostOps0]; after_results; rfl
  rw [e]; exact shapeCast_a_1a_apply _ _ _ _

end Cert.KernelIdeal.Entry

end
-- ==== Proof.KernelBlocks.lean ====
/-
  Each window's block at a grid point, read at an entry.

  The grid has 256 points. At point t the three streamed inputs (observations, y, noise) and the three outputs stage rows
  t·4096 … t·4096 + 4095 of their arrays, all columns; the eighteen weight and bias windows stage their whole array at
  every point. So entry (r, k) of a streamed block is entry (t·4096 + r, k) of the array, and an entry of a weight or bias
  block is the same entry of the array. With what the host wrote into those arrays (KernelEntry.lean) this gives every
  block the body loads in terms of the program's arguments, and the body's parameters are the arguments' parameters.
-/
import proofs.«141094_j3762391351958_2_alg».proof.Proof.Gen.KernelIdeal.Value
import proofs.«141094_j3762391351958_2_alg».proof.Proof.Spec
import proofs.«141094_j3762391351958_2_alg».proof.Proof.KernelPay
import proofs.«141094_j3762391351958_2_alg».proof.Proof.KernelEntry
import Idealize.ShloMosaic.Lib.ValueLayout

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.Mlp Cert.KernelIdeal.Pay

variable (m : (ℓ : Loc nD τ sig) → Buf (Elt Ideal) ℓ)

/-! ## The index maps, decided over the 256 points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx21 : ∀ t : Fin cfg0.N, win0_21.index t (0 : Fin 2) = t.val ∧ win0_21.index t (1 : Fin 2) = 0 :=
  (by decide +kernel : ∀ t : Fin grid0.N, _)
theorem idx22 : ∀ t : Fin cfg0.N, win0_22.index t (0 : Fin 2) = t.val ∧ win0_22.index t (1 : Fin 2) = 0 :=
  (by decide +kernel : ∀ t : Fin grid0.N, _)
theorem idx23 : ∀ t : Fin cfg0.N, win0_23.index t (0 : Fin 2) = t.val ∧ win0_23.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 2) = 0 ∧ win0_18.index t (1 : Fin 2) = 0 :=
  (by decide +kernel : ∀ t : Fin grid0.N, _)
theorem idx19 : ∀ t : Fin cfg0.N, win0_19.index t (0 : Fin 2) = 0 ∧ win0_19.index t (1 : Fin 2) = 0 :=
  (by decide +kernel : ∀ t : Fin grid0.N, _)
theorem idx20 : ∀ t : Fin cfg0.N, win0_20.index t (0 : Fin 2) = 0 ∧ win0_20.index t (1 : Fin 2) = 0 :=
  (by decide +kernel : ∀ t : Fin grid0.N, _)

/-- Row r of point t's block is a row of the array. -/
theorem row_lt (t : Fin cfg0.N) (r : Fin 4096) : t.val * 4096 + r.val < 1048576 := by
  have := t.isLt; have hN : cfg0.N = 256 := N_0; omega

/-! ## Reading any array through a window's block -/

theorem read0 (t : Fin cfg0.N) (A : S1048576x64.Idx → EReal) (r : Fin 4096) (k : Fin 64) :
    ((cfg0.win 0).blk t).view.read (Elt Ideal) A (ix2 r k) = A (ix2 (⟨t.val * 4096 + r.val, row_lt t r⟩ : Fin 1048576) k) := by
  show A (((cfg0.win 0).blk t).view.emb (ix2 r k)) = _
  refine congrArg A (funext fun a => Fin.ext ?_)
  obtain ⟨e0, e1⟩ := idx0 t
  match a with
  | ⟨0, _⟩ => show win0_0.index t (0 : Fin 2) * 4096 + 1 * r.val = t.val * 4096 + r.val; omega
  | ⟨1, _⟩ => show win0_0.index t (1 : Fin 2) * 64 + 1 * k.val = k.val; omega

theorem read1 (t : Fin cfg0.N) (A : S1048576x16.Idx → EReal) (r : Fin 4096) (k : Fin 16) :
    ((cfg0.win 1).blk t).view.read (Elt Ideal) A (ix2 r k) = A (ix2 (⟨t.val * 4096 + r.val, row_lt t r⟩ : Fin 1048576) k) := by
  show A (((cfg0.win 1).blk t).view.emb (ix2 r k)) = _
  refine congrArg A (funext fun a => Fin.ext ?_)
  obtain ⟨e0, e1⟩ := idx1 t
  match a with
  | ⟨0, _⟩ => show win0_1.index t (0 : Fin 2) * 4096 + 1 * r.val = t.val * 4096 + r.val; omega
  | ⟨1, _⟩ => show win0_1.index t (1 : Fin 2) * 16 + 1 * k.val = k.val; omega

theorem read2 (t : Fin cfg0.N) (A : S1048576x16.Idx → EReal) (r : Fin 4096) (k : Fin 16) :
    ((cfg0.win 2).blk t).view.read (Elt Ideal) A (ix2 r k) = A (ix2 (⟨t.val * 4096 + r.val, row_lt t r⟩ : Fin 1048576) k) := by
  show A (((cfg0.win 2).blk t).view.emb (ix2 r k)) = _
  refine congrArg A (funext fun a => Fin.ext ?_)
  obtain ⟨e0, e1⟩ := idx2 t
  match a with
  | ⟨0, _⟩ => show win0_2.index t (0 : Fin 2) * 4096 + 1 * r.val = t.val * 4096 + r.val; omega
  | ⟨1, _⟩ => show win0_2.index t (1 : Fin 2) * 16 + 1 * k.val = k.val; omega

theorem read21 (t : Fin cfg0.N) (A : S1048576x16.Idx → EReal) (r : Fin 4096) (k : Fin 16) :
    ((cfg0.win 21).blk t).view.read (Elt Ideal) A (ix2 r k) = A (ix2 (⟨t.val * 4096 + r.val, row_lt t r⟩ : Fin 1048576) k) := by
  show A (((cfg0.win 21).blk t).view.emb (ix2 r k)) = _
  refine congrArg A (funext fun a => Fin.ext ?_)
  obtain ⟨e0, e1⟩ := idx21 t
  match a with
  | ⟨0, _⟩ => show win0_21.index t (0 : Fin 2) * 4096 + 1 * r.val = t.val * 4096 + r.val; omega
  | ⟨1, _⟩ => show win0_21.index t (1 : Fin 2) * 16 + 1 * k.val = k.val; omega

theorem read22 (t : Fin cfg0.N) (A : S1048576x16.Idx → EReal) (r : Fin 4096) (k : Fin 16) :
    ((cfg0.win 22).blk t).view.read (Elt Ideal) A (ix2 r k) = A (ix2 (⟨t.val * 4096 + r.val, row_lt t r⟩ : Fin 1048576) k) := by
  show A (((cfg0.win 22).blk t).view.emb (ix2 r k)) = _
  refine congrArg A (funext fun a => Fin.ext ?_)
  obtain ⟨e0, e1⟩ := idx22 t
  match a with
  | ⟨0, _⟩ => show win0_22.index t (0 : Fin 2) * 4096 + 1 * r.val = t.val * 4096 + r.val; omega
  | ⟨1, _⟩ => show win0_22.index t (1 : Fin 2) * 16 + 1 * k.val = k.val; omega

theorem read23 (t : Fin cfg0.N) (A : S1048576x16.Idx → EReal) (r : Fin 4096) (k : Fin 16) :
    ((cfg0.win 23).blk t).view.read (Elt Ideal) A (ix2 r k) = A (ix2 (⟨t.val * 4096 + r.val, row_lt t r⟩ : Fin 1048576) k) := by
  show A (((cfg0.win 23).blk t).view.emb (ix2 r k)) = _
  refine congrArg A (funext fun a => Fin.ext ?_)
  obtain ⟨e0, e1⟩ := idx23 t
  match a with
  | ⟨0, _⟩ => show win0_23.index t (0 : Fin 2) * 4096 + 1 * r.val = t.val * 4096 + r.val; omega
  | ⟨1, _⟩ => show win0_23.index t (1 : Fin 2) * 16 + 1 * k.val = k.val; omega

theorem read3 (t : Fin cfg0.N) (A : S76x64.Idx → EReal) (k : Fin 76) (q : Fin 64) :
    ((cfg0.win 3).blk t).view.read (Elt Ideal) A (ix2 k q) = A (ix2 k q) := by
  show A (((cfg0.win 3).blk t).view.emb (ix2 k q)) = _
  refine congrArg A (funext fun a => Fin.ext ?_)
  obtain ⟨e0, e1⟩ := idx3 t
  match a with
  | ⟨0, _⟩ => show win0_3.index t (0 : Fin 2) * 76 + 1 * k.val = k.val; omega
  | ⟨1, _⟩ => show win0_3.index t (1 : Fin 2) * 64 + 1 * q.val = q.val; omega

theorem read5 (t : Fin cfg0.N) (A : S64x64.Idx → EReal) (k : Fin 64) (q : Fin 64) :
    ((cfg0.win 5).blk t).view.read (Elt Ideal) A (ix2 k q) = A (ix2 k q) := by
  show A (((cfg0.win 5).blk t).view.emb (ix2 k q)) = _
  refine congrArg A (funext fun a => Fin.ext ?_)
  obtain ⟨e0, e1⟩ := idx5 t
  match a with
  | ⟨0, _⟩ => show win0_5.index t (0 : Fin 2) * 64 + 1 * k.val = k.val; omega
  | ⟨1, _⟩ => show win0_5.index t (1 : Fin 2) * 64 + 1 * q.val = q.val; omega

theorem read7 (t : Fin cfg0.N) (A : S64x76.Idx → EReal) (k : Fin 64) (q : Fin 76) :
    ((cfg0.win 7).blk t).view.read (Elt Ideal) A (ix2 k q) = A (ix2 k q) := by
  show A (((cfg0.win 7).blk t).view.emb (ix2 k q)) = _
  refine congrArg A (funext fun a => Fin.ext ?_)
  obtain ⟨e0, e1⟩ := idx7 t
  match a with
  | ⟨0, _⟩ => show win0_7.index t (0 : Fin 2) * 64 + 1 * k.val = k.val; omega
  | ⟨1, _⟩ => show win0_7.index t (1 : Fin 2) * 76 + 1 * q.val = q.val; omega

theorem read9 (t : Fin cfg0.N) (A : S76x64.Idx → EReal) (k : Fin 76) (q : Fin 64) :
    ((cfg0.win 9).blk t).view.read (Elt Ideal) A (ix2 k q) = A (ix2 k q) := by
  show A (((cfg0.win 9).blk t).view.emb (ix2 k q)) = _
  refine congrArg A (funext fun a => Fin.ext ?_)
  obtain ⟨e0, e1⟩ := idx9 t
  match a with
  | ⟨0, _⟩ => show win0_9.index t (0 : Fin 2) * 76 + 1 * k.val = k.val; omega
  | ⟨1, _⟩ => show win0_9.index t (1 : Fin 2) * 64 + 1 * q.val = q.val; omega

theorem read11 (t : Fin cfg0.N) (A : S64x64.Idx → EReal) (k : Fin 64) (q : Fin 64) :
    ((cfg0.win 11).blk t).view.read (Elt Ideal) A (ix2 k q) = A (ix2 k q) := by
  show A (((cfg0.win 11).blk t).view.emb (ix2 k q)) = _
  refine congrArg A (funext fun a => Fin.ext ?_)
  obtain ⟨e0, e1⟩ := idx11 t
  match a with
  | ⟨0, _⟩ => show win0_11.index t (0 : Fin 2) * 64 + 1 * k.val = k.val; omega
  | ⟨1, _⟩ => show win0_11.index t (1 : Fin 2) * 64 + 1 * q.val = q.val; omega

theorem read13 (t : Fin cfg0.N) (A : S64x32.Idx → EReal) (k : Fin 64) (q : Fin 32) :
    ((cfg0.win 13).blk t).view.read (Elt Ideal) A (ix2 k q) = A (ix2 k q) := by
  show A (((cfg0.win 13).blk t).view.emb (ix2 k q)) = _
  refine congrArg A (funext fun a => Fin.ext ?_)
  obtain ⟨e0, e1⟩ := idx13 t
  match a with
  | ⟨0, _⟩ => show win0_13.index t (0 : Fin 2) * 64 + 1 * k.val = k.val; omega
  | ⟨1, _⟩ => show win0_13.index t (1 : Fin 2) * 32 + 1 * q.val = q.val; omega

theorem read15 (t : Fin cfg0.N) (A : S32x16.Idx → EReal) (k : Fin 32) (q : Fin 16) :
    ((cfg0.win 15).blk t).view.read (Elt Ideal) A (ix2 k q) = A (ix2 k q) := by
  show A (((cfg0.win 15).blk t).view.emb (ix2 k q)) = _
  refine congrArg A (funext fun a => Fin.ext ?_)
  obtain ⟨e0, e1⟩ := idx15 t
  match a with
  | ⟨0, _⟩ => show win0_15.index t (0 : Fin 2) * 32 + 1 * k.val = k.val; omega
  | ⟨1, _⟩ => show win0_15.index t (1 : Fin 2) * 16 + 1 * q.val = q.val; omega

theorem read17 (t : Fin cfg0.N) (A : S16x16.Idx → EReal) (k : Fin 16) (q : Fin 16) :
    ((cfg0.win 17).blk t).view.read (Elt Ideal) A (ix2 k q) = A (ix2 k q) := by
  show A (((cfg0.win 17).blk t).view.emb (ix2 k q)) = _
  refine congrArg A (funext fun a => Fin.ext ?_)
  obtain ⟨e0, e1⟩ := idx17 t
  match a with
  | ⟨0, _⟩ => show win0_17.index t (0 : Fin 2) * 16 + 1 * k.val = k.val; omega
  | ⟨1, _⟩ => show win0_17.index t (1 : Fin 2) * 16 + 1 * q.val = q.val; omega

theorem read19 (t : Fin cfg0.N) (A : S16x16.Idx → EReal) (k : Fin 16) (q : Fin 16) :
    ((cfg0.win 19).blk t).view.read (Elt Ideal) A (ix2 k q) = A (ix2 k q) := by
  show A (((cfg0.win 19).blk t).view.emb (ix2 k q)) = _
  refine congrArg A (funext fun a => Fin.ext ?_)
  obtain ⟨e0, e1⟩ := idx19 t
  match a with
  | ⟨0, _⟩ => show win0_19.index t (0 : Fin 2) * 16 + 1 * k.val = k.val; omega
  | ⟨1, _⟩ => show win0_19.index t (1 : Fin 2) * 16 + 1 * q.val = q.val; omega

theorem read4 (t : Fin cfg0.N) (A : S1x64.Idx → EReal) (k : Fin 1) (q : Fin 64) :
    ((cfg0.win 4).blk t).view.read (Elt Ideal) A (ix2 k q) = A (ix2 k q) := by
  show A (((cfg0.win 4).blk t).view.emb (ix2 k q)) = _
  refine congrArg A (funext fun a => Fin.ext ?_)
  obtain ⟨e0, e1⟩ := idx4 t
  match a with
  | ⟨0, _⟩ => show win0_4.index t (0 : Fin 2) * 1 + 1 * k.val = k.val; omega
  | ⟨1, _⟩ => show win0_4.index t (1 : Fin 2) * 64 + 1 * q.val = q.val; omega

theorem read6 (t : Fin cfg0.N) (A : S1x64.Idx → EReal) (k : Fin 1) (q : Fin 64) :
    ((cfg0.win 6).blk t).view.read (Elt Ideal) A (ix2 k q) = A (ix2 k q) := by
  show A (((cfg0.win 6).blk t).view.emb (ix2 k q)) = _
  refine congrArg A (funext fun a => Fin.ext ?_)
  obtain ⟨e0, e1⟩ := idx6 t
  match a with
  | ⟨0, _⟩ => show win0_6.index t (0 : Fin 2) * 1 + 1 * k.val = k.val; omega
  | ⟨1, _⟩ => show win0_6.index t (1 : Fin 2) * 64 + 1 * q.val = q.val; omega

theorem read8 (t : Fin cfg0.N) (A : S1x76.Idx → EReal) (k : Fin 1) (q : Fin 76) :
    ((cfg0.win 8).blk t).view.read (Elt Ideal) A (ix2 k q) = A (ix2 k q) := by
  show A (((cfg0.win 8).blk t).view.emb (ix2 k q)) = _
  refine congrArg A (funext fun a => Fin.ext ?_)
  obtain ⟨e0, e1⟩ := idx8 t
  match a with
  | ⟨0, _⟩ => show win0_8.index t (0 : Fin 2) * 1 + 1 * k.val = k.val; omega
  | ⟨1, _⟩ => show win0_8.index t (1 : Fin 2) * 76 + 1 * q.val = q.val; omega

theorem read10 (t : Fin cfg0.N) (A : S1x64.Idx → EReal) (k : Fin 1) (q : Fin 64) :
    ((cfg0.win 10).blk t).view.read (Elt Ideal) A (ix2 k q) = A (ix2 k q) := by
  show A (((cfg0.win 10).blk t).view.emb (ix2 k q)) = _
  refine congrArg A (funext fun a => Fin.ext ?_)
  obtain ⟨e0, e1⟩ := idx10 t
  match a with
  | ⟨0, _⟩ => show win0_10.index t (0 : Fin 2) * 1 + 1 * k.val = k.val; omega
  | ⟨1, _⟩ => show win0_10.index t (1 : Fin 2) * 64 + 1 * q.val = q.val; omega

theorem read12 (t : Fin cfg0.N) (A : S1x64.Idx → EReal) (k : Fin 1) (q : Fin 64) :
    ((cfg0.win 12).blk t).view.read (Elt Ideal) A (ix2 k q) = A (ix2 k q) := by
  show A (((cfg0.win 12).blk t).view.emb (ix2 k q)) = _
  refine congrArg A (funext fun a => Fin.ext ?_)
  obtain ⟨e0, e1⟩ := idx12 t
  match a with
  | ⟨0, _⟩ => show win0_12.index t (0 : Fin 2) * 1 + 1 * k.val = k.val; omega
  | ⟨1, _⟩ => show win0_12.index t (1 : Fin 2) * 64 + 1 * q.val = q.val; omega

theorem read14 (t : Fin cfg0.N) (A : S1x32.Idx → EReal) (k : Fin 1) (q : Fin 32) :
    ((cfg0.win 14).blk t).view.read (Elt Ideal) A (ix2 k q) = A (ix2 k q) := by
  show A (((cfg0.win 14).blk t).view.emb (ix2 k q)) = _
  refine congrArg A (funext fun a => Fin.ext ?_)
  obtain ⟨e0, e1⟩ := idx14 t
  match a with
  | ⟨0, _⟩ => show win0_14.index t (0 : Fin 2) * 1 + 1 * k.val = k.val; omega
  | ⟨1, _⟩ => show win0_14.index t (1 : Fin 2) * 32 + 1 * q.val = q.val; omega

theorem read16 (t : Fin cfg0.N) (A : S1x16.Idx → EReal) (k : Fin 1) (q : Fin 16) :
    ((cfg0.win 16).blk t).view.read (Elt Ideal) A (ix2 k q) = A (ix2 k q) := by
  show A (((cfg0.win 16).blk t).view.emb (ix2 k q)) = _
  refine congrArg A (funext fun a => Fin.ext ?_)
  obtain ⟨e0, e1⟩ := idx16 t
  match a with
  | ⟨0, _⟩ => show win0_16.index t (0 : Fin 2) * 1 + 1 * k.val = k.val; omega
  | ⟨1, _⟩ => show win0_16.index t (1 : Fin 2) * 16 + 1 * q.val = q.val; omega

theorem read18 (t : Fin cfg0.N) (A : S1x16.Idx → EReal) (k : Fin 1) (q : Fin 16) :
    ((cfg0.win 18).blk t).view.read (Elt Ideal) A (ix2 k q) = A (ix2 k q) := by
  show A (((cfg0.win 18).blk t).view.emb (ix2 k q)) = _
  refine congrArg A (funext fun a => Fin.ext ?_)
  obtain ⟨e0, e1⟩ := idx18 t
  match a with
  | ⟨0, _⟩ => show win0_18.index t (0 : Fin 2) * 1 + 1 * k.val = k.val; omega
  | ⟨1, _⟩ => show win0_18.index t (1 : Fin 2) * 16 + 1 * q.val = q.val; omega

theorem read20 (t : Fin cfg0.N) (A : S1x16.Idx → EReal) (k : Fin 1) (q : Fin 16) :
    ((cfg0.win 20).blk t).view.read (Elt Ideal) A (ix2 k q) = A (ix2 k q) := by
  show A (((cfg0.win 20).blk t).view.emb (ix2 k q)) = _
  refine congrArg A (funext fun a => Fin.ext ?_)
  obtain ⟨e0, e1⟩ := idx20 t
  match a with
  | ⟨0, _⟩ => show win0_20.index t (0 : Fin 2) * 1 + 1 * k.val = k.val; omega
  | ⟨1, _⟩ => show win0_20.index t (1 : Fin 2) * 16 + 1 * q.val = q.val; omega

/-! ## The blocks the body loads, in terms of the arguments -/

theorem blk0 (c : Dev nD) (t : Fin cfg0.N) (r : Fin 4096) (k : Fin 64) :
    (iblk m c 0 t : Vec Ideal S4096x64 .f32) (ix2 r k)
      = m ((c : Thread nD τ).loc main_arg0) (ix2 (⟨t.val * 4096 + r.val, row_lt t r⟩ : Fin 1048576) k) :=
  (read0 t (V m c main_arg0) r k).trans (congrFun (V_main_arg0 m c) _)

theorem blk1 (c : Dev nD) (t : Fin cfg0.N) (r : Fin 4096) (k : Fin 16) :
    (iblk m c 1 t : Vec Ideal S4096x16 .f32) (ix2 r k)
      = m ((c : Thread nD τ).loc main_arg1) (ix2 (⟨t.val * 4096 + r.val, row_lt t r⟩ : Fin 1048576) k) :=
  (read1 t (V m c main_arg1) r k).trans (congrFun (V_main_arg1 m c) _)

theorem blk2 (c : Dev nD) (t : Fin cfg0.N) (r : Fin 4096) (k : Fin 16) :
    (iblk m c 2 t : Vec Ideal S4096x16 .f32) (ix2 r k)
      = m ((c : Thread nD τ).loc main_arg2) (ix2 (⟨t.val * 4096 + r.val, row_lt t r⟩ : Fin 1048576) k) :=
  (read2 t (V m c main_arg2) r k).trans (congrFun (V_main_arg2 m c) _)

theorem blk3 (c : Dev nD) (t : Fin cfg0.N) (k : Fin 76) (q : Fin 64) :
    (iblk m c 3 t : Vec Ideal S76x64 .bf16) (ix2 k q) = m ((c : Thread nD τ).loc main_arg3) (ix2 k q) :=
  (read3 t (V m c main_v0) k q).trans (Entry.V_v0 m c _)

theorem blk5 (c : Dev nD) (t : Fin cfg0.N) (k : Fin 64) (q : Fin 64) :
    (iblk m c 5 t : Vec Ideal S64x64 .bf16) (ix2 k q) = m ((c : Thread nD τ).loc main_arg5) (ix2 k q) :=
  (read5 t (V m c main_v1) k q).trans (Entry.V_v1 m c _)

theorem blk7 (c : Dev nD) (t : Fin cfg0.N) (k : Fin 64) (q : Fin 76) :
    (iblk m c 7 t : Vec Ideal S64x76 .bf16) (ix2 k q) = m ((c : Thread nD τ).loc main_arg7) (ix2 k q) :=
  (read7 t (V m c main_v2) k q).trans (Entry.V_v2 m c _)

theorem blk9 (c : Dev nD) (t : Fin cfg0.N) (k : Fin 76) (q : Fin 64) :
    (iblk m c 9 t : Vec Ideal S76x64 .bf16) (ix2 k q) = m ((c : Thread nD τ).loc main_arg9) (ix2 k q) :=
  (read9 t (V m c main_v3) k q).trans (Entry.V_v3 m c _)

theorem blk11 (c : Dev nD) (t : Fin cfg0.N) (k : Fin 64) (q : Fin 64) :
    (iblk m c 11 t : Vec Ideal S64x64 .bf16) (ix2 k q) = m ((c : Thread nD τ).loc main_arg11) (ix2 k q) :=
  (read11 t (V m c main_v4) k q).trans (Entry.V_v4 m c _)

theorem blk13 (c : Dev nD) (t : Fin cfg0.N) (k : Fin 64) (q : Fin 32) :
    (iblk m c 13 t : Vec Ideal S64x32 .bf16) (ix2 k q) = m ((c : Thread nD τ).loc main_arg13) (ix2 k q) :=
  (read13 t (V m c main_v5) k q).trans (Entry.V_v5 m c _)

theorem blk15 (c : Dev nD) (t : Fin cfg0.N) (k : Fin 32) (q : Fin 16) :
    (iblk m c 15 t : Vec Ideal S32x16 .bf16) (ix2 k q) = m ((c : Thread nD τ).loc main_arg15) (ix2 k q) :=
  (read15 t (V m c main_v6) k q).trans (Entry.V_v6 m c _)

theorem blk17 (c : Dev nD) (t : Fin cfg0.N) (k : Fin 16) (q : Fin 16) :
    (iblk m c 17 t : Vec Ideal S16x16 .bf16) (ix2 k q) = m ((c : Thread nD τ).loc main_arg17) (ix2 k q) :=
  (read17 t (V m c main_v7) k q).trans (Entry.V_v7 m c _)

theorem blk19 (c : Dev nD) (t : Fin cfg0.N) (k : Fin 16) (q : Fin 16) :
    (iblk m c 19 t : Vec Ideal S16x16 .bf16) (ix2 k q) = m ((c : Thread nD τ).loc main_arg19) (ix2 k q) :=
  (read19 t (V m c main_v8) k q).trans (Entry.V_v8 m c _)

theorem blk4 (c : Dev nD) (t : Fin cfg0.N) (q : Fin 64) :
    (iblk m c 4 t : Vec Ideal S1x64 .f32) (ix2 (0 : Fin 1) q) = m ((c : Thread nD τ).loc main_arg4) (ix1 q) :=
  (read4 t (V m c main_v9) 0 q).trans (Entry.V_v9 m c q)

theorem blk6 (c : Dev nD) (t : Fin cfg0.N) (q : Fin 64) :
    (iblk m c 6 t : Vec Ideal S1x64 .f32) (ix2 (0 : Fin 1) q) = m ((c : Thread nD τ).loc main_arg6) (ix1 q) :=
  (read6 t (V m c main_v10) 0 q).trans (Entry.V_v10 m c q)

theorem blk8 (c : Dev nD) (t : Fin cfg0.N) (q : Fin 76) :
    (iblk m c 8 t : Vec Ideal S1x76 .f32) (ix2 (0 : Fin 1) q) = m ((c : Thread nD τ).loc main_arg8) (ix1 q) :=
  (read8 t (V m c main_v11) 0 q).trans (Entry.V_v11 m c q)

theorem blk10 (c : Dev nD) (t : Fin cfg0.N) (q : Fin 64) :
    (iblk m c 10 t : Vec Ideal S1x64 .f32) (ix2 (0 : Fin 1) q) = m ((c : Thread nD τ).loc main_arg10) (ix1 q) :=
  (read10 t (V m c main_v12) 0 q).trans (Entry.V_v12 m c q)

theorem blk12 (c : Dev nD) (t : Fin cfg0.N) (q : Fin 64) :
    (iblk m c 12 t : Vec Ideal S1x64 .f32) (ix2 (0 : Fin 1) q) = m ((c : Thread nD τ).loc main_arg12) (ix1 q) :=
  (read12 t (V m c main_v13) 0 q).trans (Entry.V_v13 m c q)

theorem blk14 (c : Dev nD) (t : Fin cfg0.N) (q : Fin 32) :
    (iblk m c 14 t : Vec Ideal S1x32 .f32) (ix2 (0 : Fin 1) q) = m ((c : Thread nD τ).loc main_arg14) (ix1 q) :=
  (read14 t (V m c main_v14) 0 q).trans (Entry.V_v14 m c q)

theorem blk16 (c : Dev nD) (t : Fin cfg0.N) (q : Fin 16) :
    (iblk m c 16 t : Vec Ideal S1x16 .f32) (ix2 (0 : Fin 1) q) = m ((c : Thread nD τ).loc main_arg16) (ix1 q) :=
  (read16 t (V m c main_v15) 0 q).trans (Entry.V_v15 m c q)

theorem blk18 (c : Dev nD) (t : Fin cfg0.N) (q : Fin 16) :
    (iblk m c 18 t : Vec Ideal S1x16 .f32) (ix2 (0 : Fin 1) q) = m ((c : Thread nD τ).loc main_arg18) (ix1 q) :=
  (read18 t (V m c main_v16) 0 q).trans (Entry.V_v16 m c q)

theorem blk20 (c : Dev nD) (t : Fin cfg0.N) (q : Fin 16) :
    (iblk m c 20 t : Vec Ideal S1x16 .f32) (ix2 (0 : Fin 1) q) = m ((c : Thread nD τ).loc main_arg20) (ix1 q) :=
  (read20 t (V m c main_v17) 0 q).trans (Entry.V_v17 m c q)

/-! ## The parameters and the rows -/

/-- The network's parameters, read off the program's eighteen weight and bias arguments. -/
def PK (c : Dev nD) : Params :=
  paramsOf (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))
    (m ((c : Thread nD τ).loc main_arg18))
    (m ((c : Thread nD τ).loc main_arg19))
    (m ((c : Thread nD τ).loc main_arg20))

theorem mat3 (c : Dev nD) (t : Fin cfg0.N) : matOf (iblk m c 3 t : Vec Ideal S76x64 .bf16) = matOf (m ((c : Thread nD τ).loc main_arg3)) :=
  funext fun k => funext fun q => blk3 m c t k q
theorem mat5 (c : Dev nD) (t : Fin cfg0.N) : matOf (iblk m c 5 t : Vec Ideal S64x64 .bf16) = matOf (m ((c : Thread nD τ).loc main_arg5)) :=
  funext fun k => funext fun q => blk5 m c t k q
theorem mat7 (c : Dev nD) (t : Fin cfg0.N) : matOf (iblk m c 7 t : Vec Ideal S64x76 .bf16) = matOf (m ((c : Thread nD τ).loc main_arg7)) :=
  funext fun k => funext fun q => blk7 m c t k q
theorem mat9 (c : Dev nD) (t : Fin cfg0.N) : matOf (iblk m c 9 t : Vec Ideal S76x64 .bf16) = matOf (m ((c : Thread nD τ).loc main_arg9)) :=
  funext fun k => funext fun q => blk9 m c t k q
theorem mat11 (c : Dev nD) (t : Fin cfg0.N) : matOf (iblk m c 11 t : Vec Ideal S64x64 .bf16) = matOf (m ((c : Thread nD τ).loc main_arg11)) :=
  funext fun k => funext fun q => blk11 m c t k q
theorem mat13 (c : Dev nD) (t : Fin cfg0.N) : matOf (iblk m c 13 t : Vec Ideal S64x32 .bf16) = matOf (m ((c : Thread nD τ).loc main_arg13)) :=
  funext fun k => funext fun q => blk13 m c t k q
theorem mat15 (c : Dev nD) (t : Fin cfg0.N) : matOf (iblk m c 15 t : Vec Ideal S32x16 .bf16) = matOf (m ((c : Thread nD τ).loc main_arg15)) :=
  funext fun k => funext fun q => blk15 m c t k q
theorem mat17 (c : Dev nD) (t : Fin cfg0.N) : matOf (iblk m c 17 t : Vec Ideal S16x16 .bf16) = matOf (m ((c : Thread nD τ).loc main_arg17)) :=
  funext fun k => funext fun q => blk17 m c t k q
theorem mat19 (c : Dev nD) (t : Fin cfg0.N) : matOf (iblk m c 19 t : Vec Ideal S16x16 .bf16) = matOf (m ((c : Thread nD τ).loc main_arg19)) :=
  funext fun k => funext fun q => blk19 m c t k q
theorem vec4 (c : Dev nD) (t : Fin cfg0.N) : rowOf (iblk m c 4 t : Vec Ideal S1x64 .f32) 0 = vecOf (m ((c : Thread nD τ).loc main_arg4)) :=
  funext fun q => blk4 m c t q
theorem vec6 (c : Dev nD) (t : Fin cfg0.N) : rowOf (iblk m c 6 t : Vec Ideal S1x64 .f32) 0 = vecOf (m ((c : Thread nD τ).loc main_arg6)) :=
  funext fun q => blk6 m c t q
theorem vec8 (c : Dev nD) (t : Fin cfg0.N) : rowOf (iblk m c 8 t : Vec Ideal S1x76 .f32) 0 = vecOf (m ((c : Thread nD τ).loc main_arg8)) :=
  funext fun q => blk8 m c t q
theorem vec10 (c : Dev nD) (t : Fin cfg0.N) : rowOf (iblk m c 10 t : Vec Ideal S1x64 .f32) 0 = vecOf (m ((c : Thread nD τ).loc main_arg10)) :=
  funext fun q => blk10 m c t q
theorem vec12 (c : Dev nD) (t : Fin cfg0.N) : rowOf (iblk m c 12 t : Vec Ideal S1x64 .f32) 0 = vecOf (m ((c : Thread nD τ).loc main_arg12)) :=
  funext fun q => blk12 m c t q
theorem vec14 (c : Dev nD) (t : Fin cfg0.N) : rowOf (iblk m c 14 t : Vec Ideal S1x32 .f32) 0 = vecOf (m ((c : Thread nD τ).loc main_arg14)) :=
  funext fun q => blk14 m c t q
theorem vec16 (c : Dev nD) (t : Fin cfg0.N) : rowOf (iblk m c 16 t : Vec Ideal S1x16 .f32) 0 = vecOf (m ((c : Thread nD τ).loc main_arg16)) :=
  funext fun q => blk16 m c t q
theorem vec18 (c : Dev nD) (t : Fin cfg0.N) : rowOf (iblk m c 18 t : Vec Ideal S1x16 .f32) 0 = vecOf (m ((c : Thread nD τ).loc main_arg18)) :=
  funext fun q => blk18 m c t q
theorem vec20 (c : Dev nD) (t : Fin cfg0.N) : rowOf (iblk m c 20 t : Vec Ideal S1x16 .f32) 0 = vecOf (m ((c : Thread nD τ).loc main_arg20)) :=
  funext fun q => blk20 m c t q

/-- The parameters the body reads at any point are the arguments' parameters. -/
theorem params_eq (c : Dev nD) (t : Fin cfg0.N) :
    blockParams (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) = PK m c := by
  unfold blockParams PK paramsOf
  rw [mat3 m c t, mat5 m c t, mat7 m c t, mat9 m c t, mat11 m c t, mat13 m c t, mat15 m c t, mat17 m c t, mat19 m c t,
    vec4 m c t, vec6 m c t, vec8 m c t, vec10 m c t, vec12 m c t, vec14 m c t, vec16 m c t, vec18 m c t, vec20 m c t]

theorem row0 (c : Dev nD) (t : Fin cfg0.N) (r : Fin 4096) :
    rowOf (iblk m c 0 t : Vec Ideal S4096x64 .f32) r = rowOf (m ((c : Thread nD τ).loc main_arg0)) (⟨t.val * 4096 + r.val, row_lt t r⟩ : Fin 1048576) :=
  funext fun k => blk0 m c t r k

theorem row1 (c : Dev nD) (t : Fin cfg0.N) (r : Fin 4096) :
    rowOf (iblk m c 1 t : Vec Ideal S4096x16 .f32) r = rowOf (m ((c : Thread nD τ).loc main_arg1)) (⟨t.val * 4096 + r.val, row_lt t r⟩ : Fin 1048576) :=
  funext fun k => blk1 m c t r k

theorem row2 (c : Dev nD) (t : Fin cfg0.N) (r : Fin 4096) :
    rowOf (iblk m c 2 t : Vec Ideal S4096x16 .f32) r = rowOf (m ((c : Thread nD τ).loc main_arg2)) (⟨t.val * 4096 + r.val, row_lt t r⟩ : Fin 1048576) :=
  funext fun k => blk2 m c t r k

end Cert.KernelIdeal.Blocks

end
-- ==== Proof.KernelValue.lean ====
/-
  The kernel's three result arrays as the network of its arguments.

  At grid point t the body stores, into each output block, the network's value for the 4096 rows of the blocks it loaded
  (KernelPay.lean); those blocks are rows t·4096 … t·4096 + 4095 of the observations, of y and of the noise, and the weight
  and bias blocks are the whole arguments (KernelBlocks.lean). So what point t writes back is block t of the whole-array
  function of Spec.lean. Row p of a result array lies in the block of point p / 4096, every point writes back, and the
  256 blocks cover the array: the result arrays end holding Gsample, Gmu and Gsd of the arguments.
-/
import proofs.«141094_j3762391351958_2_alg».proof.Proof.KernelBlocks

noncomputable section

namespace Cert.KernelIdeal.KValue

open Cert.KernelIdeal Cert.KernelIdeal.Gen Cert.KernelIdeal.Value Idealize.ShloMosaic Idealize.ShloMosaic.TcCoe Idealize.SL.Sem
open Idealize.ShloMosaic.ValueIdx Cert.Mlp Cert.KernelIdeal.Pay Cert.KernelIdeal.Blocks
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## Output window 21: the sample -/

/-- What point t writes back to the sample's array is block t of the network's sample of the arguments: the body's stored
    value at (r, q) is the sample of row r of the loaded blocks, which are rows t·4096 + r of the arguments. -/
theorem flushed21_eq (c : Dev nD) (t : Fin cfg0.N) :
    (dats m 0 c).flushed 21 t = ((cfg0.win 21).blk t).view.read (Elt Ideal) (Gsample (PK m c) (m ((c : Thread nD τ).loc main_arg0)) (m ((c : Thread nD τ).loc main_arg1)) (m ((c : Thread nD τ).loc main_arg2))) := by
  rw [flushed21 m c t]
  unfold out0_21
  rw [View.canon_unit_zero hz]
  simp only [View.ld_unit_zero (S := S4096x64) hz, View.ld_unit_zero (S := S4096x16) hz, View.ld_unit_zero (S := S76x64) hz, View.ld_unit_zero (S := S1x64) hz, View.ld_unit_zero (S := S64x64) hz, View.ld_unit_zero (S := S64x76) hz, View.ld_unit_zero (S := S1x76) hz, View.ld_unit_zero (S := S64x32) hz, View.ld_unit_zero (S := S1x32) hz, View.ld_unit_zero (S := S32x16) hz, View.ld_unit_zero (S := S1x16) hz, View.ld_unit_zero (S := S16x16) hz]
  refine funext fun (j : S4096x16.Idx) => ?_
  obtain ⟨r, q, rfl⟩ : ∃ (r : Fin 4096) (q : Fin 16), j = ix2 r q := ⟨j 0, j 1, eq_ix2 j⟩
  refine (sample_block (iblk m c 0 t) (iblk m c 1 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 2 t) r q).trans ?_
  rw [read21 t _ r q, Gsample_apply, params_eq m c t, row0 m c t r, row1 m c t r, row2 m c t r]
  rfl

/-- An index of the array is in point t's block iff each coordinate is in the block's range on its axis. -/
theorem mem_blk21 (t : Fin cfg0.N) (i : S1048576x16.Idx) :
    i ∈ ((cfg0.win 21).blk t).view.set ↔ ∀ a : Fin 2, win0_21.index t a * S4096x16.size a ≤ (i a).val ∧ (i a).val < win0_21.index t a * S4096x16.size a + S4096x16.size a := by
  show i ∈ ((View.whole main_v18_0).slice (win0_21.rect t)).set ↔ _
  rw [View.set_slice_whole, Rect.mem_set_unit]
  exact Iff.rfl

/-- Row p of the array lies in the block of point p / 4096. -/
theorem cover21 (i : S1048576x16.Idx) : ∃ t : Fin cfg0.N, (cfg0.win 21).flush t = true ∧ i ∈ ((cfg0.win 21).blk t).view.set := by
  have h0 : (i 0).val < 1048576 := (i 0).isLt
  have h1 : (i 1).val < 16 := (i 1).isLt
  have hN : cfg0.N = 256 := N_0
  have ht : (i 0).val / 4096 < cfg0.N := by omega
  refine ⟨⟨(i 0).val / 4096, ht⟩, flush0_21 _, ?_⟩
  rw [mem_blk21]
  obtain ⟨e0, e1⟩ := idx21 ⟨(i 0).val / 4096, ht⟩
  intro a
  match a with
  | ⟨0, _⟩ =>
    show win0_21.index ⟨(i 0).val / 4096, ht⟩ (0 : Fin 2) * 4096 ≤ (i 0).val ∧ (i 0).val < win0_21.index ⟨(i 0).val / 4096, ht⟩ (0 : Fin 2) * 4096 + 4096
    rw [e0]
    show (i 0).val / 4096 * 4096 ≤ (i 0).val ∧ (i 0).val < (i 0).val / 4096 * 4096 + 4096
    omega
  | ⟨1, _⟩ =>
    show win0_21.index ⟨(i 0).val / 4096, ht⟩ (1 : Fin 2) * 16 ≤ (i 1).val ∧ (i 1).val < win0_21.index ⟨(i 0).val / 4096, ht⟩ (1 : Fin 2) * 16 + 16
    rw [e1]
    omega

/-- So the sample's array ends holding the network's sample of the arguments. -/
theorem final21 (c : Dev nD) : (dats m 0 c).arrAt 21 cfg0.N = Gsample (PK m c) (m ((c : Thread nD τ).loc main_arg0)) (m ((c : Thread nD τ).loc main_arg1)) (m ((c : Thread nD τ).loc main_arg2)) :=
  (dats m 0 c).arrAt_eq_of_cover 21 (Gsample (PK m c) (m ((c : Thread nD τ).loc main_arg0)) (m ((c : Thread nD τ).loc main_arg1)) (m ((c : Thread nD τ).loc main_arg2))) (fun t _ => flushed21_eq m c t) cover21

/-! ## Output window 22: the mean -/

/-- What point t writes back to the mean's array is block t of the network's mean of the arguments: the body's stored
    value at (r, q) is the mean of row r of the loaded blocks, which are rows t·4096 + r of the arguments. -/
theorem flushed22_eq (c : Dev nD) (t : Fin cfg0.N) :
    (dats m 0 c).flushed 22 t = ((cfg0.win 22).blk t).view.read (Elt Ideal) (Gmu (PK m c) (m ((c : Thread nD τ).loc main_arg0)) (m ((c : Thread nD τ).loc main_arg1))) := by
  rw [flushed22 m c t]
  unfold out0_22
  rw [View.canon_unit_zero hz]
  simp only [View.ld_unit_zero (S := S4096x64) hz, View.ld_unit_zero (S := S4096x16) hz, View.ld_unit_zero (S := S76x64) hz, View.ld_unit_zero (S := S1x64) hz, View.ld_unit_zero (S := S64x64) hz, View.ld_unit_zero (S := S64x76) hz, View.ld_unit_zero (S := S1x76) hz, View.ld_unit_zero (S := S64x32) hz, View.ld_unit_zero (S := S1x32) hz, View.ld_unit_zero (S := S32x16) hz, View.ld_unit_zero (S := S1x16) hz, View.ld_unit_zero (S := S16x16) hz]
  refine funext fun (j : S4096x16.Idx) => ?_
  obtain ⟨r, q, rfl⟩ : ∃ (r : Fin 4096) (q : Fin 16), j = ix2 r q := ⟨j 0, j 1, eq_ix2 j⟩
  refine (mu_block (iblk m c 0 t) (iblk m c 1 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) r q).trans ?_
  rw [read22 t _ r q, Gmu_apply, params_eq m c t, row0 m c t r, row1 m c t r]
  rfl

/-- An index of the array is in point t's block iff each coordinate is in the block's range on its axis. -/
theorem mem_blk22 (t : Fin cfg0.N) (i : S1048576x16.Idx) :
    i ∈ ((cfg0.win 22).blk t).view.set ↔ ∀ a : Fin 2, win0_22.index t a * S4096x16.size a ≤ (i a).val ∧ (i a).val < win0_22.index t a * S4096x16.size a + S4096x16.size a := by
  show i ∈ ((View.whole main_v18_1).slice (win0_22.rect t)).set ↔ _
  rw [View.set_slice_whole, Rect.mem_set_unit]
  exact Iff.rfl

/-- Row p of the array lies in the block of point p / 4096. -/
theorem cover22 (i : S1048576x16.Idx) : ∃ t : Fin cfg0.N, (cfg0.win 22).flush t = true ∧ i ∈ ((cfg0.win 22).blk t).view.set := by
  have h0 : (i 0).val < 1048576 := (i 0).isLt
  have h1 : (i 1).val < 16 := (i 1).isLt
  have hN : cfg0.N = 256 := N_0
  have ht : (i 0).val / 4096 < cfg0.N := by omega
  refine ⟨⟨(i 0).val / 4096, ht⟩, flush0_22 _, ?_⟩
  rw [mem_blk22]
  obtain ⟨e0, e1⟩ := idx22 ⟨(i 0).val / 4096, ht⟩
  intro a
  match a with
  | ⟨0, _⟩ =>
    show win0_22.index ⟨(i 0).val / 4096, ht⟩ (0 : Fin 2) * 4096 ≤ (i 0).val ∧ (i 0).val < win0_22.index ⟨(i 0).val / 4096, ht⟩ (0 : Fin 2) * 4096 + 4096
    rw [e0]
    show (i 0).val / 4096 * 4096 ≤ (i 0).val ∧ (i 0).val < (i 0).val / 4096 * 4096 + 4096
    omega
  | ⟨1, _⟩ =>
    show win0_22.index ⟨(i 0).val / 4096, ht⟩ (1 : Fin 2) * 16 ≤ (i 1).val ∧ (i 1).val < win0_22.index ⟨(i 0).val / 4096, ht⟩ (1 : Fin 2) * 16 + 16
    rw [e1]
    omega

/-- So the mean's array ends holding the network's mean of the arguments. -/
theorem final22 (c : Dev nD) : (dats m 0 c).arrAt 22 cfg0.N = Gmu (PK m c) (m ((c : Thread nD τ).loc main_arg0)) (m ((c : Thread nD τ).loc main_arg1)) :=
  (dats m 0 c).arrAt_eq_of_cover 22 (Gmu (PK m c) (m ((c : Thread nD τ).loc main_arg0)) (m ((c : Thread nD τ).loc main_arg1))) (fun t _ => flushed22_eq m c t) cover22

/-! ## Output window 23: the variance -/

/-- What point t writes back to the variance's array is block t of the network's variance of the arguments: the body's stored
    value at (r, q) is the variance of row r of the loaded blocks, which are rows t·4096 + r of the arguments. -/
theorem flushed23_eq (c : Dev nD) (t : Fin cfg0.N) :
    (dats m 0 c).flushed 23 t = ((cfg0.win 23).blk t).view.read (Elt Ideal) (Gsd (PK m c) (m ((c : Thread nD τ).loc main_arg0)) (m ((c : Thread nD τ).loc main_arg1))) := by
  rw [flushed23 m c t]
  unfold out0_23
  rw [View.canon_unit_zero hz]
  simp only [View.ld_unit_zero (S := S4096x64) hz, View.ld_unit_zero (S := S4096x16) hz, View.ld_unit_zero (S := S76x64) hz, View.ld_unit_zero (S := S1x64) hz, View.ld_unit_zero (S := S64x64) hz, View.ld_unit_zero (S := S64x76) hz, View.ld_unit_zero (S := S1x76) hz, View.ld_unit_zero (S := S64x32) hz, View.ld_unit_zero (S := S1x32) hz, View.ld_unit_zero (S := S32x16) hz, View.ld_unit_zero (S := S1x16) hz, View.ld_unit_zero (S := S16x16) hz]
  refine funext fun (j : S4096x16.Idx) => ?_
  obtain ⟨r, q, rfl⟩ : ∃ (r : Fin 4096) (q : Fin 16), j = ix2 r q := ⟨j 0, j 1, eq_ix2 j⟩
  refine (sd_block (iblk m c 0 t) (iblk m c 1 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) r q).trans ?_
  rw [read23 t _ r q, Gsd_apply, params_eq m c t, row0 m c t r, row1 m c t r]
  rfl

/-- An index of the array is in point t's block iff each coordinate is in the block's range on its axis. -/
theorem mem_blk23 (t : Fin cfg0.N) (i : S1048576x16.Idx) :
    i ∈ ((cfg0.win 23).blk t).view.set ↔ ∀ a : Fin 2, win0_23.index t a * S4096x16.size a ≤ (i a).val ∧ (i a).val < win0_23.index t a * S4096x16.size a + S4096x16.size a := by
  show i ∈ ((View.whole main_v18_2).slice (win0_23.rect t)).set ↔ _
  rw [View.set_slice_whole, Rect.mem_set_unit]
  exact Iff.rfl

/-- Row p of the array lies in the block of point p / 4096. -/
theorem cover23 (i : S1048576x16.Idx) : ∃ t : Fin cfg0.N, (cfg0.win 23).flush t = true ∧ i ∈ ((cfg0.win 23).blk t).view.set := by
  have h0 : (i 0).val < 1048576 := (i 0).isLt
  have h1 : (i 1).val < 16 := (i 1).isLt
  have hN : cfg0.N = 256 := N_0
  have ht : (i 0).val / 4096 < cfg0.N := by omega
  refine ⟨⟨(i 0).val / 4096, ht⟩, flush0_23 _, ?_⟩
  rw [mem_blk23]
  obtain ⟨e0, e1⟩ := idx23 ⟨(i 0).val / 4096, ht⟩
  intro a
  match a with
  | ⟨0, _⟩ =>
    show win0_23.index ⟨(i 0).val / 4096, ht⟩ (0 : Fin 2) * 4096 ≤ (i 0).val ∧ (i 0).val < win0_23.index ⟨(i 0).val / 4096, ht⟩ (0 : Fin 2) * 4096 + 4096
    rw [e0]
    show (i 0).val / 4096 * 4096 ≤ (i 0).val ∧ (i 0).val < (i 0).val / 4096 * 4096 + 4096
    omega
  | ⟨1, _⟩ =>
    show win0_23.index ⟨(i 0).val / 4096, ht⟩ (1 : Fin 2) * 16 ≤ (i 1).val ∧ (i 1).val < win0_23.index ⟨(i 0).val / 4096, ht⟩ (1 : Fin 2) * 16 + 16
    rw [e1]
    omega

/-- So the variance's array ends holding the network's variance of the arguments. -/
theorem final23 (c : Dev nD) : (dats m 0 c).arrAt 23 cfg0.N = Gsd (PK m c) (m ((c : Thread nD τ).loc main_arg0)) (m ((c : Thread nD τ).loc main_arg1)) :=
  (dats m 0 c).arrAt_eq_of_cover 23 (Gsd (PK m c) (m ((c : Thread nD τ).loc main_arg0)) (m ((c : Thread nD τ).loc main_arg1))) (fun t _ => flushed23_eq m c t) cover23

/-! ## The run, read -/

/-- Every weakly fair execution of the idealized kernel ends with the three result arrays at the network's sample, mean
    and variance of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v18_0) = Gsample (PK m c) (m ((c : Thread nD τ).loc main_arg0)) (m ((c : Thread nD τ).loc main_arg1)) (m ((c : Thread nD τ).loc main_arg2))
      ∧ r.2.mem ((c : Thread nD τ).loc main_v18_1) = Gmu (PK m c) (m ((c : Thread nD τ).loc main_arg0)) (m ((c : Thread nD τ).loc main_arg1))
      ∧ r.2.mem ((c : Thread nD τ).loc main_v18_2) = Gsd (PK m c) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(h c).1.trans (final21 m c), (h c).2.1.trans (final22 m c),
      (h c).2.2.1.trans (final23 m c), (h c).2.2.2⟩)
    (Value.run_blocks m ρ)

end Cert.KernelIdeal.KValue

end
-- ==== Proof.RefRun.lean ====
/-
  The reference program's host operations as one list, and its run.

  The reference is a straight line of tensor operations: an integer index table and a column gather, a
  concatenation, nine matrix products each followed by the broadcast of a bias and an addition, hyperbolic
  tangents, rectifications against a broadcast zero, two clippings against broadcast bounds, an exponential, a
  square root, a product and a sum. The three functions the program calls (the rectification at two widths and
  the clipping) are listed inline at their call sites, over the buffers of each call. Every weakly fair execution
  runs the list to its end, and each buffer then holds the fold of the operations over the launch contents.

  The values the list leaves in the three result buffers are stated over named stages, one per layer of the
  network, each a function of the previous stage and of the argument arrays.
-/
import proofs.«141094_j3762391351958_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 77 operations in order, each called function's operations at its call site. -/
abbrev ops : List (HloOp τ sig (Elt F)) :=
  [ nullary main_c (fun i => lit0 (S60.rowMajor i)),
    nullary main_c_0 (constantI S60 1 0#1),
    nullary main_c_1 (constantI S_ 32 64#32),
    unary main_c_1 main_v0 (broadcastInDim S60 ![] bcast_S_S60 : (⟨S_, .i32⟩ : BufTy).Contents (Elt F) → (⟨S60, .i32⟩ : BufTy).Contents (Elt F)),
    binary main_c main_v0 main_v1 (addi : (⟨S60, .i32⟩ : BufTy).Contents (Elt F) → (⟨S60, .i32⟩ : BufTy).Contents (Elt F) → (⟨S60, .i32⟩ : BufTy).Contents (Elt F)),
    ternary main_c_0 main_v1 main_c main_v2 (select : (⟨S60, .i1⟩ : BufTy).Contents (Elt F) → (⟨S60, .i32⟩ : BufTy).Contents (Elt F) → (⟨S60, .i32⟩ : BufTy).Contents (Elt F) → (⟨S60, .i32⟩ : BufTy).Contents (Elt F)),
    unary main_v2 main_v3 (broadcastInDim S60x1 ![0] bcast_S60_S60x1_0 : (⟨S60, .i32⟩ : BufTy).Contents (Elt F) → (⟨S60x1, .i32⟩ : BufTy).Contents (Elt F)),
    binary main_arg0 main_v3 main_v4 ((fun x i => Host.gather gather_S1048576x64_S60x1_S1048576x60_0_1_n_n_1_1_10485761 x i) : (⟨S1048576x64, .f32⟩ : BufTy).Contents (Elt F) → (⟨S60x1, .i32⟩ : BufTy).Contents (Elt F) → (⟨S1048576x60, .f32⟩ : BufTy).Contents (Elt F)),
    binary main_v4 main_arg1 main_v5 ((fun a b => concatenate S1048576x76 1 [⟨S1048576x60, a⟩, ⟨S1048576x16, b⟩] concatenates_S1048576x60_S1048576x16_S1048576x76_d1) : (⟨S1048576x60, .f32⟩ : BufTy).Contents (Elt F) → (⟨S1048576x16, .f32⟩ : BufTy).Contents (Elt F) → (⟨S1048576x76, .f32⟩ : BufTy).Contents (Elt F)),
    binary main_v5 main_arg3 main_v6 ((fun l r => Host.dotGeneral dot_S1048576x76_S76x64_S1048576x64_1_0_0_1_n_n none l r) : (⟨S1048576x76, .f32⟩ : BufTy).Contents (Elt F) → (⟨S76x64, .f32⟩ : BufTy).Contents (Elt F) → (⟨S1048576x64, .f32⟩ : BufTy).Contents (Elt F)),
    unary main_arg4 main_v7 (broadcastInDim S1x64 ![1] bcast_S64_S1x64_1 : (⟨S64, .f32⟩ : BufTy).Contents (Elt F) → (⟨S1x64, .f32⟩ : BufTy).Contents (Elt F)),
    unary main_v7 main_v8 (broadcastInDim S1048576x64 ![0, 1] bcast_S1x64_S1048576x64_0_1 : (⟨S1x64, .f32⟩ : BufTy).Contents (Elt F) → (⟨S1048576x64, .f32⟩ : BufTy).Contents (Elt F)),
    binary main_v6 main_v8 main_v9 (addf : (⟨S1048576x64, .f32⟩ : BufTy).Contents (Elt F) → (⟨S1048576x64, .f32⟩ : BufTy).Contents (Elt F) → (⟨S1048576x64, .f32⟩ : BufTy).Contents (Elt F)),
    unary main_v9 main_v10 (Host.tanh : (⟨S1048576x64, .f32⟩ : BufTy).Contents (Elt F) → (⟨S1048576x64, .f32⟩ : BufTy).Contents (Elt F)),
    binary main_v10 main_arg5 main_v11 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F)),
    unary main_arg6 main_v12 (broadcastInDim S1x64 ![1] bcast_S64_S1x64_1 : (⟨S64, .f32⟩ : BufTy).Contents (Elt F) → (⟨S1x64, .f32⟩ : BufTy).Contents (Elt F)),
    unary main_v12 main_v13 (broadcastInDim S1048576x64 ![0, 1] bcast_S1x64_S1048576x64_0_1 : (⟨S1x64, .f32⟩ : BufTy).Contents (Elt F) → (⟨S1048576x64, .f32⟩ : BufTy).Contents (Elt F)),
    binary main_v11 main_v13 main_v14 (addf : (⟨S1048576x64, .f32⟩ : BufTy).Contents (Elt F) → (⟨S1048576x64, .f32⟩ : BufTy).Contents (Elt F) → (⟨S1048576x64, .f32⟩ : BufTy).Contents (Elt F)),
    unary main_v14 main_v15 (Host.tanh : (⟨S1048576x64, .f32⟩ : BufTy).Contents (Elt F) → (⟨S1048576x64, .f32⟩ : BufTy).Contents (Elt F)),
    binary main_v15 main_arg7 main_v16 ((fun l r => Host.dotGeneral dot_S1048576x64_S64x76_S1048576x76_1_0_0_1_n_n none l r) : (⟨S1048576x64, .f32⟩ : BufTy).Contents (Elt F) → (⟨S64x76, .f32⟩ : BufTy).Contents (Elt F) → (⟨S1048576x76, .f32⟩ : BufTy).Contents (Elt F)),
    unary main_arg8 main_v17 (broadcastInDim S1x76 ![1] bcast_S76_S1x76_1 : (⟨S76, .f32⟩ : BufTy).Contents (Elt F) → (⟨S1x76, .f32⟩ : BufTy).Contents (Elt F)),
    unary main_v17 main_v18 (broadcastInDim S1048576x76 ![0, 1] bcast_S1x76_S1048576x76_0_1 : (⟨S1x76, .f32⟩ : BufTy).Contents (Elt F) → (⟨S1048576x76, .f32⟩ : BufTy).Contents (Elt F)),
    binary main_v16 main_v18 main_v19 (addf : (⟨S1048576x76, .f32⟩ : BufTy).Contents (Elt F) → (⟨S1048576x76, .f32⟩ : BufTy).Contents (Elt F) → (⟨S1048576x76, .f32⟩ : BufTy).Contents (Elt F)),
    binary main_v19 main_arg9 main_v20 ((fun l r => Host.dotGeneral dot_S1048576x76_S76x64_S1048576x64_1_0_0_1_n_n none l r) : (⟨S1048576x76, .f32⟩ : BufTy).Contents (Elt F) → (⟨S76x64, .f32⟩ : BufTy).Contents (Elt F) → (⟨S1048576x64, .f32⟩ : BufTy).Contents (Elt F)),
    unary main_arg10 main_v21 (broadcastInDim S1x64 ![1] bcast_S64_S1x64_1 : (⟨S64, .f32⟩ : BufTy).Contents (Elt F) → (⟨S1x64, .f32⟩ : BufTy).Contents (Elt F)),
    unary main_v21 main_v22 (broadcastInDim S1048576x64 ![0, 1] bcast_S1x64_S1048576x64_0_1 : (⟨S1x64, .f32⟩ : BufTy).Contents (Elt F) → (⟨S1048576x64, .f32⟩ : BufTy).Contents (Elt F)),
    binary main_v20 main_v22 main_v23 (addf : (⟨S1048576x64, .f32⟩ : BufTy).Contents (Elt F) → (⟨S1048576x64, .f32⟩ : BufTy).Contents (Elt F) → (⟨S1048576x64, .f32⟩ : BufTy).Contents (Elt F)),
    TRef.nullary main_call0.cst (constant S_ .f32 0x00000000#32),
    TRef.unary main_call0.cst main_call0.v0 (broadcastInDim S1048576x64 ![] bcast_S_S1048576x64),
    TRef.binary (.of main_v23) main_call0.v0 main_call0.v1 maximumf,
    binary main_v24 main_arg11 main_v25 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F)),
    unary main_arg12 main_v26 (broadcastInDim S1x64 ![1] bcast_S64_S1x64_1 : (⟨S64, .f32⟩ : BufTy).Contents (Elt F) → (⟨S1x64, .f32⟩ : BufTy).Contents (Elt F)),
    unary main_v26 main_v27 (broadcastInDim S1048576x64 ![0, 1] bcast_S1x64_S1048576x64_0_1 : (⟨S1x64, .f32⟩ : BufTy).Contents (Elt F) → (⟨S1048576x64, .f32⟩ : BufTy).Contents (Elt F)),
    binary main_v25 main_v27 main_v28 (addf : (⟨S1048576x64, .f32⟩ : BufTy).Contents (Elt F) → (⟨S1048576x64, .f32⟩ : BufTy).Contents (Elt F) → (⟨S1048576x64, .f32⟩ : BufTy).Contents (Elt F)),
    TRef.nullary main_call1.cst (constant S_ .f32 0x00000000#32),
    TRef.unary main_call1.cst main_call1.v0 (broadcastInDim S1048576x64 ![] bcast_S_S1048576x64),
    TRef.binary (.of main_v28) main_call1.v0 main_call1.v1 maximumf,
    binary main_v29 main_arg13 main_v30 ((fun l r => Host.dotGeneral dot_S1048576x64_S64x32_S1048576x32_1_0_0_1_n_n none l r) : (⟨S1048576x64, .f32⟩ : BufTy).Contents (Elt F) → (⟨S64x32, .f32⟩ : BufTy).Contents (Elt F) → (⟨S1048576x32, .f32⟩ : BufTy).Contents (Elt F)),
    unary main_arg14 main_v31 (broadcastInDim S1x32 ![1] bcast_S32_S1x32_1 : (⟨S32, .f32⟩ : BufTy).Contents (Elt F) → (⟨S1x32, .f32⟩ : BufTy).Contents (Elt F)),
    unary main_v31 main_v32 (broadcastInDim S1048576x32 ![0, 1] bcast_S1x32_S1048576x32_0_1 : (⟨S1x32, .f32⟩ : BufTy).Contents (Elt F) → (⟨S1048576x32, .f32⟩ : BufTy).Contents (Elt F)),
    binary main_v30 main_v32 main_v33 (addf : (⟨S1048576x32, .f32⟩ : BufTy).Contents (Elt F) → (⟨S1048576x32, .f32⟩ : BufTy).Contents (Elt F) → (⟨S1048576x32, .f32⟩ : BufTy).Contents (Elt F)),
    TRef.nullary main_call2.cst (constant S_ .f32 0x00000000#32),
    TRef.unary main_call2.cst main_call2.v0 (broadcastInDim S1048576x32 ![] bcast_S_S1048576x32),
    TRef.binary (.of main_v33) main_call2.v0 main_call2.v1 maximumf,
    binary main_v34 main_arg15 main_v35 ((fun l r => Host.dotGeneral dot_S1048576x32_S32x16_S1048576x16_1_0_0_1_n_n none l r) : (⟨S1048576x32, .f32⟩ : BufTy).Contents (Elt F) → (⟨S32x16, .f32⟩ : BufTy).Contents (Elt F) → (⟨S1048576x16, .f32⟩ : BufTy).Contents (Elt F)),
    unary main_arg16 main_v36 (broadcastInDim S1x16 ![1] bcast_S16_S1x16_1 : (⟨S16, .f32⟩ : BufTy).Contents (Elt F) → (⟨S1x16, .f32⟩ : BufTy).Contents (Elt F)),
    unary main_v36 main_v37 (broadcastInDim S1048576x16 ![0, 1] bcast_S1x16_S1048576x16_0_1 : (⟨S1x16, .f32⟩ : BufTy).Contents (Elt F) → (⟨S1048576x16, .f32⟩ : BufTy).Contents (Elt F)),
    binary main_v35 main_v37 main_v38 (addf : (⟨S1048576x16, .f32⟩ : BufTy).Contents (Elt F) → (⟨S1048576x16, .f32⟩ : BufTy).Contents (Elt F) → (⟨S1048576x16, .f32⟩ : BufTy).Contents (Elt F)),
    binary main_v38 main_arg17 main_v39 ((fun l r => Host.dotGeneral dot_S1048576x16_S16x16_S1048576x16_1_0_0_1_n_n none l r) : (⟨S1048576x16, .f32⟩ : BufTy).Contents (Elt F) → (⟨S16x16, .f32⟩ : BufTy).Contents (Elt F) → (⟨S1048576x16, .f32⟩ : BufTy).Contents (Elt F)),
    unary main_arg18 main_v40 (broadcastInDim S1x16 ![1] bcast_S16_S1x16_1 : (⟨S16, .f32⟩ : BufTy).Contents (Elt F) → (⟨S1x16, .f32⟩ : BufTy).Contents (Elt F)),
    unary main_v40 main_v41 (broadcastInDim S1048576x16 ![0, 1] bcast_S1x16_S1048576x16_0_1 : (⟨S1x16, .f32⟩ : BufTy).Contents (Elt F) → (⟨S1048576x16, .f32⟩ : BufTy).Contents (Elt F)),
    binary main_v39 main_v41 main_v42 (addf : (⟨S1048576x16, .f32⟩ : BufTy).Contents (Elt F) → (⟨S1048576x16, .f32⟩ : BufTy).Contents (Elt F) → (⟨S1048576x16, .f32⟩ : BufTy).Contents (Elt F)),
    nullary main_cst (constant S_ .f32 0xC0E7AE14#32),
    nullary main_cst_2 (constant S_ .f32 0x40E7AE14#32),
    TRef.unary (.of main_cst) main_call3.v0 id,
    TRef.unary main_call3.v0 main_call3.v1 (broadcastInDim S1048576x16 ![] bcast_S_S1048576x16),
    TRef.binary main_call3.v1 (.of main_v42) main_call3.v2 maximumf,
    TRef.unary (.of main_cst_2) main_call3.v3 id,
    TRef.unary main_call3.v3 main_call3.v4 (broadcastInDim S1048576x16 ![] bcast_S_S1048576x16),
    TRef.binary main_call3.v4 main_call3.v2 main_call3.v5 minimumf,
    unary main_v43 main_v44 (Host.tanh : (⟨S1048576x16, .f32⟩ : BufTy).Contents (Elt F) → (⟨S1048576x16, .f32⟩ : BufTy).Contents (Elt F)),
    binary main_v38 main_arg19 main_v45 ((fun l r => Host.dotGeneral dot_S1048576x16_S16x16_S1048576x16_1_0_0_1_n_n none l r) : (⟨S1048576x16, .f32⟩ : BufTy).Contents (Elt F) → (⟨S16x16, .f32⟩ : BufTy).Contents (Elt F) → (⟨S1048576x16, .f32⟩ : BufTy).Contents (Elt F)),
    unary main_arg20 main_v46 (broadcastInDim S1x16 ![1] bcast_S16_S1x16_1 : (⟨S16, .f32⟩ : BufTy).Contents (Elt F) → (⟨S1x16, .f32⟩ : BufTy).Contents (Elt F)),
    unary main_v46 main_v47 (broadcastInDim S1048576x16 ![0, 1] bcast_S1x16_S1048576x16_0_1 : (⟨S1x16, .f32⟩ : BufTy).Contents (Elt F) → (⟨S1048576x16, .f32⟩ : BufTy).Contents (Elt F)),
    binary main_v45 main_v47 main_v48 (addf : (⟨S1048576x16, .f32⟩ : BufTy).Contents (Elt F) → (⟨S1048576x16, .f32⟩ : BufTy).Contents (Elt F) → (⟨S1048576x16, .f32⟩ : BufTy).Contents (Elt F)),
    nullary main_cst_3 (constant S_ .f32 0xC0A00000#32),
    nullary main_cst_4 (constant S_ .f32 0x40000000#32),
    TRef.unary (.of main_cst_3) main_call4.v0 id,
    TRef.unary main_call4.v0 main_call4.v1 (broadcastInDim S1048576x16 ![] bcast_S_S1048576x16),
    TRef.binary main_call4.v1 (.of main_v48) main_call4.v2 maximumf,
    TRef.unary (.of main_cst_4) main_call4.v3 id,
    TRef.unary main_call4.v3 main_call4.v4 (broadcastInDim S1048576x16 ![] bcast_S_S1048576x16),
    TRef.binary main_call4.v4 main_call4.v2 main_call4.v5 minimumf,
    unary main_v49 main_v50 (Host.exp : (⟨S1048576x16, .f32⟩ : BufTy).Contents (Elt F) → (⟨S1048576x16, .f32⟩ : BufTy).Contents (Elt F)),
    unary main_v50 main_v51 (Host.sqrt : (⟨S1048576x16, .f32⟩ : BufTy).Contents (Elt F) → (⟨S1048576x16, .f32⟩ : BufTy).Contents (Elt F)),
    binary main_v51 main_arg2 main_v52 (mulf : (⟨S1048576x16, .f32⟩ : BufTy).Contents (Elt F) → (⟨S1048576x16, .f32⟩ : BufTy).Contents (Elt F) → (⟨S1048576x16, .f32⟩ : BufTy).Contents (Elt F)),
    binary main_v44 main_v52 main_v53 (addf : (⟨S1048576x16, .f32⟩ : BufTy).Contents (Elt F) → (⟨S1048576x16, .f32⟩ : BufTy).Contents (Elt F) → (⟨S1048576x16, .f32⟩ : BufTy).Contents (Elt F)) ]

set_option maxRecDepth 16384 in
set_option maxHeartbeats 8000000 in  -- seventy-seven sequenced steps compared one by one
/-- @main is that straight line: its two windows and the called functions unfold to the same chain of steps,
    sequencing reassociating by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., binary_bufs_sub .., binary_bufs_sub ..⟩

/-- From any memory with zero counters every weakly fair execution of @main terminates, and each buffer ends at
    the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/-
  The reference's results as named stages, one per layer of the network.

  Each stage is a function of the previous one and of the argument arrays, written in the program's own operations:
  the index column and the gathered, joined input rows; the six affine layers (a matrix product plus a broadcast
  bias) at the widths the network uses; the rectifications and the clippings as the called functions compute them;
  the embedding network, the encoder, the two heads and the sample. Reading the fold of the operation list at a result
  buffer gives exactly the composed stages of the argument buffers' contents, and at an argument buffer what it held.
-/
import proofs.«141094_j3762391351958_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages

Each layer of the network as a function of the previous stage and of the argument arrays, in the program's own
operations. -/

/-- The gather's index column: the table of sixty entries, passed through the program's index arithmetic (a sum
    with the broadcast extent, selected against by a mask that is false everywhere) and placed as a column. -/
def idxCol : IVec S60x1 32 :=
  broadcastInDim S60x1 ![0] bcast_S60_S60x1_0
    (select (constantI S60 1 0#1)
      (addi (fun i => lit0 (S60.rowMajor i)) (broadcastInDim S60 ![] bcast_S_S60 (constantI S_ 32 64#32)))
      (fun i => lit0 (S60.rowMajor i)))

/-- The network's input rows: sixty gathered observation columns, then the sixteen columns of `y`. -/
def joinedArr (obs : FVec F S1048576x64 .f32) (y : FVec F S1048576x16 .f32) : FVec F S1048576x76 .f32 :=
  concatenate S1048576x76 1
    [⟨S1048576x60, Host.gather gather_S1048576x64_S60x1_S1048576x60_0_1_n_n_1_1_10485761 obs idxCol⟩, ⟨S1048576x16, y⟩] concatenates_S1048576x60_S1048576x16_S1048576x76_d1

/-- The affine layer 76 → 64 on every row: the product with the weights plus the broadcast bias. -/
def aff76x64 (x : FVec F S1048576x76 .f32) (w : FVec F S76x64 .f32) (b : FVec F S64 .f32) : FVec F S1048576x64 .f32 :=
  addf (Host.dotGeneral dot_S1048576x76_S76x64_S1048576x64_1_0_0_1_n_n none x w)
    (broadcastInDim S1048576x64 ![0, 1] bcast_S1x64_S1048576x64_0_1 (broadcastInDim S1x64 ![1] bcast_S64_S1x64_1 b))

/-- The affine layer 64 → 64 on every row. -/
def aff64x64 (x : FVec F S1048576x64 .f32) (w : FVec F S64x64 .f32) (b : FVec F S64 .f32) : FVec F S1048576x64 .f32 :=
  addf (Host.dotGeneral dot_S1048576x64_S64x64_S1048576x64_1_0_0_1_n_n none x w)
    (broadcastInDim S1048576x64 ![0, 1] bcast_S1x64_S1048576x64_0_1 (broadcastInDim S1x64 ![1] bcast_S64_S1x64_1 b))

/-- The affine layer 64 → 76 on every row. -/
def aff64x76 (x : FVec F S1048576x64 .f32) (w : FVec F S64x76 .f32) (b : FVec F S76 .f32) : FVec F S1048576x76 .f32 :=
  addf (Host.dotGeneral dot_S1048576x64_S64x76_S1048576x76_1_0_0_1_n_n none x w)
    (broadcastInDim S1048576x76 ![0, 1] bcast_S1x76_S1048576x76_0_1 (broadcastInDim S1x76 ![1] bcast_S76_S1x76_1 b))

/-- The affine layer 64 → 32 on every row. -/
def aff64x32 (x : FVec F S1048576x64 .f32) (w : FVec F S64x32 .f32) (b : FVec F S32 .f32) : FVec F S1048576x32 .f32 :=
  addf (Host.dotGeneral dot_S1048576x64_S64x32_S1048576x32_1_0_0_1_n_n none x w)
    (broadcastInDim S1048576x32 ![0, 1] bcast_S1x32_S1048576x32_0_1 (broadcastInDim S1x32 ![1] bcast_S32_S1x32_1 b))

/-- The affine layer 32 → 16 on every row. -/
def aff32x16 (x : FVec F S1048576x32 .f32) (w : FVec F S32x16 .f32) (b : FVec F S16 .f32) : FVec F S1048576x16 .f32 :=
  addf (Host.dotGeneral dot_S1048576x32_S32x16_S1048576x16_1_0_0_1_n_n none x w)
    (broadcastInDim S1048576x16 ![0, 1] bcast_S1x16_S1048576x16_0_1 (broadcastInDim S1x16 ![1] bcast_S16_S1x16_1 b))

/-- The affine layer 16 → 16 on every row. -/
def aff16x16 (x : FVec F S1048576x16 .f32) (w : FVec F S16x16 .f32) (b : FVec F S16 .f32) : FVec F S1048576x16 .f32 :=
  addf (Host.dotGeneral dot_S1048576x16_S16x16_S1048576x16_1_0_0_1_n_n none x w)
    (broadcastInDim S1048576x16 ![0, 1] bcast_S1x16_S1048576x16_0_1 (broadcastInDim S1x16 ![1] bcast_S16_S1x16_1 b))

/-- The rectification of a 64-column array: the maximum with a broadcast zero. -/
def relu64 (x : FVec F S1048576x64 .f32) : FVec F S1048576x64 .f32 :=
  maximumf x (broadcastInDim S1048576x64 ![] bcast_S_S1048576x64 (constant S_ .f32 0x00000000#32))

/-- The rectification of a 32-column array. -/
def relu32 (x : FVec F S1048576x32 .f32) : FVec F S1048576x32 .f32 :=
  maximumf x (broadcastInDim S1048576x32 ![] bcast_S_S1048576x32 (constant S_ .f32 0x00000000#32))

/-- The clipping of a 16-column array between two broadcast bounds given by their words: the minimum of the upper
    bound with the maximum of the lower bound and the array. -/
def clip16 (lo hi : BitVec 32) (x : FVec F S1048576x16 .f32) : FVec F S1048576x16 .f32 :=
  minimumf (broadcastInDim S1048576x16 ![] bcast_S_S1048576x16 (constant S_ .f32 hi))
    (maximumf (broadcastInDim S1048576x16 ![] bcast_S_S1048576x16 (constant S_ .f32 lo)) x)

/-- The embedding network: two tanh layers and an affine layer on the joined rows. -/
def embedArr (x : FVec F S1048576x76 .f32) (ew1 : FVec F S76x64 .f32) (eb1 : FVec F S64 .f32)
    (ew2 : FVec F S64x64 .f32) (eb2 : FVec F S64 .f32) (ew3 : FVec F S64x76 .f32) (eb3 : FVec F S76 .f32) :
    FVec F S1048576x76 .f32 :=
  aff64x76 (Host.tanh (aff64x64 (Host.tanh (aff76x64 x ew1 eb1)) ew2 eb2)) ew3 eb3

/-- The encoder: three rectified layers and an affine layer on the embedding's rows. -/
def encArr (h : FVec F S1048576x76 .f32) (cw1 : FVec F S76x64 .f32) (cb1 : FVec F S64 .f32)
    (cw2 : FVec F S64x64 .f32) (cb2 : FVec F S64 .f32) (cw3 : FVec F S64x32 .f32) (cb3 : FVec F S32 .f32)
    (cw4 : FVec F S32x16 .f32) (cb4 : FVec F S16 .f32) : FVec F S1048576x16 .f32 :=
  aff32x16 (relu32 (aff64x32 (relu64 (aff64x64 (relu64 (aff76x64 h cw1 cb1)) cw2 cb2)) cw3 cb3)) cw4 cb4

/-- The mean: the tanh of the first head, clipped. -/
def muArr (z : FVec F S1048576x16 .f32) (mw : FVec F S16x16 .f32) (mb : FVec F S16 .f32) : FVec F S1048576x16 .f32 :=
  Host.tanh (clip16 0xC0E7AE14#32 0x40E7AE14#32 (aff16x16 z mw mb))

/-- The variance: the exponential of the second head, clipped. -/
def sdArr (z : FVec F S1048576x16 .f32) (lw : FVec F S16x16 .f32) (lb : FVec F S16 .f32) : FVec F S1048576x16 .f32 :=
  Host.exp (clip16 0xC0A00000#32 0x40000000#32 (aff16x16 z lw lb))

/-- The sample: the mean plus the square root of the variance times the noise. -/
def sampleArr (mu sd eps : FVec F S1048576x16 .f32) : FVec F S1048576x16 .f32 :=
  addf mu (mulf (Host.sqrt sd) eps)

/-- The encoder's output over the contents `V` of the argument buffers. -/
def zOf (V : Valuation τ sig (Elt F)) : FVec F S1048576x16 .f32 :=
  encArr (embedArr (joinedArr (V (main_arg0 : DevRef τ sig)) (V (main_arg1 : DevRef τ sig))) (V (main_arg3 : DevRef τ sig)) (V (main_arg4 : DevRef τ sig)) (V (main_arg5 : DevRef τ sig)) (V (main_arg6 : DevRef τ sig)) (V (main_arg7 : DevRef τ sig)) (V (main_arg8 : DevRef τ sig)))
    (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig))

/-- The three results over the contents of the argument buffers. -/
def resMu (V : Valuation τ sig (Elt F)) : FVec F S1048576x16 .f32 :=
  muArr (zOf V) (V (main_arg17 : DevRef τ sig)) (V (main_arg18 : DevRef τ sig))
def resSd (V : Valuation τ sig (Elt F)) : FVec F S1048576x16 .f32 :=
  sdArr (zOf V) (V (main_arg19 : DevRef τ sig)) (V (main_arg20 : DevRef τ sig))
def resSample (V : Valuation τ sig (Elt F)) : FVec F S1048576x16 .f32 :=
  sampleArr (resMu V) (resSd V) (V (main_arg2 : DevRef τ sig))

/-! ## What the list leaves in the buffers -/

set_option maxRecDepth 8192 in
set_option maxHeartbeats 4000000 in
/-- After the list the mean's buffer holds the mean stage of the argument buffers' contents. -/
theorem after_v44 (V : Valuation τ sig (Elt F)) : after ops V (main_v44 : DevRef τ sig) = resMu V := by
  after_results_simp
  rfl

set_option maxRecDepth 8192 in
set_option maxHeartbeats 4000000 in
/-- After the list the variance's buffer holds the variance stage. -/
theorem after_v50 (V : Valuation τ sig (Elt F)) : after ops V (main_v50 : DevRef τ sig) = resSd V := by
  after_results_simp
  rfl

set_option maxRecDepth 8192 in
set_option maxHeartbeats 4000000 in
/-- After the list the sample's buffer holds the sample stage. -/
theorem after_v53 (V : Valuation τ sig (Elt F)) : after ops V (main_v53 : DevRef τ sig) = resSample V := by
  after_results_simp
  rfl

/-! No operation writes an argument's buffer. -/

set_option maxRecDepth 8192 in
theorem after_arg0 (V : Valuation τ sig (Elt F)) :
    after ops V (main_arg0 : DevRef τ sig) = V (main_arg0 : DevRef τ sig) := by
  after_results_simp
set_option maxRecDepth 8192 in
theorem after_arg1 (V : Valuation τ sig (Elt F)) :
    after ops V (main_arg1 : DevRef τ sig) = V (main_arg1 : DevRef τ sig) := by
  after_results_simp
set_option maxRecDepth 8192 in
theorem after_arg2 (V : Valuation τ sig (Elt F)) :
    after ops V (main_arg2 : DevRef τ sig) = V (main_arg2 : DevRef τ sig) := by
  after_results_simp
set_option maxRecDepth 8192 in
theorem after_arg3 (V : Valuation τ sig (Elt F)) :
    after ops V (main_arg3 : DevRef τ sig) = V (main_arg3 : DevRef τ sig) := by
  after_results_simp
set_option maxRecDepth 8192 in
theorem after_arg4 (V : Valuation τ sig (Elt F)) :
    after ops V (main_arg4 : DevRef τ sig) = V (main_arg4 : DevRef τ sig) := by
  after_results_simp
set_option maxRecDepth 8192 in
theorem after_arg5 (V : Valuation τ sig (Elt F)) :
    after ops V (main_arg5 : DevRef τ sig) = V (main_arg5 : DevRef τ sig) := by
  after_results_simp
set_option maxRecDepth 8192 in
theorem after_arg6 (V : Valuation τ sig (Elt F)) :
    after ops V (main_arg6 : DevRef τ sig) = V (main_arg6 : DevRef τ sig) := by
  after_results_simp
set_option maxRecDepth 8192 in
theorem after_arg7 (V : Valuation τ sig (Elt F)) :
    after ops V (main_arg7 : DevRef τ sig) = V (main_arg7 : DevRef τ sig) := by
  after_results_simp
set_option maxRecDepth 8192 in
theorem after_arg8 (V : Valuation τ sig (Elt F)) :
    after ops V (main_arg8 : DevRef τ sig) = V (main_arg8 : DevRef τ sig) := by
  after_results_simp
set_option maxRecDepth 8192 in
theorem after_arg9 (V : Valuation τ sig (Elt F)) :
    after ops V (main_arg9 : DevRef τ sig) = V (main_arg9 : DevRef τ sig) := by
  after_results_simp
set_option maxRecDepth 8192 in
theorem after_arg10 (V : Valuation τ sig (Elt F)) :
    after ops V (main_arg10 : DevRef τ sig) = V (main_arg10 : DevRef τ sig) := by
  after_results_simp
set_option maxRecDepth 8192 in
theorem after_arg11 (V : Valuation τ sig (Elt F)) :
    after ops V (main_arg11 : DevRef τ sig) = V (main_arg11 : DevRef τ sig) := by
  after_results_simp
set_option maxRecDepth 8192 in
theorem after_arg12 (V : Valuation τ sig (Elt F)) :
    after ops V (main_arg12 : DevRef τ sig) = V (main_arg12 : DevRef τ sig) := by
  after_results_simp
set_option maxRecDepth 8192 in
theorem after_arg13 (V : Valuation τ sig (Elt F)) :
    after ops V (main_arg13 : DevRef τ sig) = V (main_arg13 : DevRef τ sig) := by
  after_results_simp
set_option maxRecDepth 8192 in
theorem after_arg14 (V : Valuation τ sig (Elt F)) :
    after ops V (main_arg14 : DevRef τ sig) = V (main_arg14 : DevRef τ sig) := by
  after_results_simp
set_option maxRecDepth 8192 in
theorem after_arg15 (V : Valuation τ sig (Elt F)) :
    after ops V (main_arg15 : DevRef τ sig) = V (main_arg15 : DevRef τ sig) := by
  after_results_simp
set_option maxRecDepth 8192 in
theorem after_arg16 (V : Valuation τ sig (Elt F)) :
    after ops V (main_arg16 : DevRef τ sig) = V (main_arg16 : DevRef τ sig) := by
  after_results_simp
set_option maxRecDepth 8192 in
theorem after_arg17 (V : Valuation τ sig (Elt F)) :
    after ops V (main_arg17 : DevRef τ sig) = V (main_arg17 : DevRef τ sig) := by
  after_results_simp
set_option maxRecDepth 8192 in
theorem after_arg18 (V : Valuation τ sig (Elt F)) :
    after ops V (main_arg18 : DevRef τ sig) = V (main_arg18 : DevRef τ sig) := by
  after_results_simp
set_option maxRecDepth 8192 in
theorem after_arg19 (V : Valuation τ sig (Elt F)) :
    after ops V (main_arg19 : DevRef τ sig) = V (main_arg19 : DevRef τ sig) := by
  after_results_simp
set_option maxRecDepth 8192 in
theorem after_arg20 (V : Valuation τ sig (Elt F)) :
    after ops V (main_arg20 : DevRef τ sig) = V (main_arg20 : DevRef τ sig) := by
  after_results_simp

/-- From any memory with zero counters every weakly fair execution of @main terminates with the three results at
    their stages of the launch contents and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = resSample (launchContents m c)
      ∧ r.2.mem ((c.tc : Thread nD τ).loc main_v44) = resMu (launchContents m c)
      ∧ r.2.mem ((c.tc : Thread nD τ).loc main_v50) = resSd (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v53).trans (after_v53 _), (h c main_v44).trans (after_v44 _),
      (h c main_v50).trans (after_v50 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _),
      (h c main_arg11).trans (after_arg11 _),
      (h c main_arg12).trans (after_arg12 _),
      (h c main_arg13).trans (after_arg13 _),
      (h c main_arg14).trans (after_arg14 _),
      (h c main_arg15).trans (after_arg15 _),
      (h c main_arg16).trans (after_arg16 _),
      (h c main_arg17).trans (after_arg17 _),
      (h c main_arg18).trans (after_arg18 _),
      (h c main_arg19).trans (after_arg19 _),
      (h c main_arg20).trans (after_arg20 _)⟩)
    (run_main m ρ)

end Cert.ReferenceIdeal.RefRun

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«141094_j3762391351958_2_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibHostAffine.lean ====
/-
  An affine layer of a host program read at an entry, over the extended reals.

  The layer is  x ↦ x·W + b  on every row of an M×K array: the host's matrix product with plain dimension numbers,
  plus the bias vector [N] placed as the row [1, N] and spread over the M rows. At row `p` and column `q` it is
    Σ_{k < K} x(p, k) · W(k, q)  +  b(q).
  Generic in M, K, N; the two broadcasts' axis maps are passed with their values, the product's dimension numbers as
  any record equal to the plain ones.
-/
import proofs.«141094_j3762391351958_2_alg».proof.Proof.LibDotGeneralPlain
import proofs.«141094_j3762391351958_2_alg».proof.Proof.LibHostBroadcast

noncomputable section

open scoped BigOperators

namespace Cert.LibHostAffine

open Idealize.ShloMosaic Idealize.ShloMosaic.ValueIdx

variable {M K N : Nat}

/-- THE AFFINE LAYER AT AN ENTRY: the product's entry plus the bias's. -/
theorem affine_apply (D : DotDims ⟨2, ![M, K]⟩ ⟨2, ![K, N]⟩ ⟨2, ![M, N]⟩) (hD : D = DotDims.plain M K N)
    (prec : Option ContractPrecision)
    (d1 : Fin (⟨1, ![N]⟩ : Shape).rank → Fin (⟨2, ![1, N]⟩ : Shape).rank)
    (hd1 : d1 ⟨0, Nat.one_pos⟩ = ⟨1, Nat.lt_succ_self 1⟩)
    (h1 : (⟨1, ![N]⟩ : Shape).BroadcastsInDim ⟨2, ![1, N]⟩ d1)
    (d2 : Fin (⟨2, ![1, N]⟩ : Shape).rank → Fin (⟨2, ![M, N]⟩ : Shape).rank)
    (hd2 : d2 ⟨1, Nat.lt_succ_self 1⟩ = ⟨1, Nat.lt_succ_self 1⟩)
    (h2 : (⟨2, ![1, N]⟩ : Shape).BroadcastsInDim ⟨2, ![M, N]⟩ d2)
    (x : FVec Ideal ⟨2, ![M, K]⟩ .f32) (w : FVec Ideal ⟨2, ![K, N]⟩ .f32) (b : FVec Ideal ⟨1, ![N]⟩ .f32)
    (p : Fin M) (q : Fin N) :
    addf (Host.dotGeneral D prec x w)
        (broadcastInDim ⟨2, ![M, N]⟩ d2 h2 (broadcastInDim ⟨2, ![1, N]⟩ d1 h1 b)) (ix2 p q)
      = (∑ k : Fin K, x (ix2 p k) * w (ix2 k q)) + b (ix1 q) := by
  show FloatOps.dotGeneral D prec .single x w (ix2 p q)
      + broadcastInDim ⟨2, ![M, N]⟩ d2 h2 (broadcastInDim ⟨2, ![1, N]⟩ d1 h1 b) (ix2 p q) = _
  rw [Cert.LibDotGeneralPlain.dotGeneral_plain_apply D hD, Cert.LibHostBroadcast.bcast_1b_ab_apply d2 hd2 h2,
    Cert.LibHostBroadcast.bcast_b_1b_apply d1 hd1 h1]

end Cert.LibHostAffine

end
-- ==== Proof.LibHostGatherCols.lean ====
/-
  A column gather of a matrix read at an entry.

  `x[:, idx]` of an A×C matrix at E column numbers lowers to `stablehlo.gather` with the whole first axis as the
  slice (offset axis 0), the second axis collapsed and addressed by the start index (start index map [1]), the start
  indices an [E, 1] array whose second axis holds the one-component index vector. Result entry (p, e) is the operand at
  row p and at the column the e-th start index names, read as a signed integer and clamped into [0, C − 1] as
  StableHLO clamps every start index. Generic in A, C, E and in the index width.
-/
import Idealize.ShloMosaic.Lib.Pipeline.Value
import Idealize.ShloMosaic.Lib.ValueIdx

namespace Cert.LibHostGatherCols

open Idealize.ShloMosaic Idealize.ShloMosaic.ValueIdx

variable {α : Type}

/-- Those dimension numbers for an operand [A, C], start indices [E, 1] and result [A, E]; their conditions `wf` are
    decided on a program's literal shapes. A printed record with the same seven fields is this one by `rfl`. -/
abbrev colDims (A C E : Nat)
    (wf : GatherDims.WF ⟨2, ![A, C]⟩ ⟨2, ![E, 1]⟩ ⟨2, ![A, E]⟩ [0] [1] [] [1] [] 1 ![A, 1]) :
    GatherDims ⟨2, ![A, C]⟩ ⟨2, ![E, 1]⟩ ⟨2, ![A, E]⟩ where
  offsetDims := [0]
  collapsedSliceDims := [1]
  operandBatchingDims := []
  startIndicesBatchingDims := []
  startIndexMap := [1]
  indexVectorDim := 1
  sliceSizes := ![A, 1]
  wf := wf

/-- THE GATHER READ AT (p, e): the operand at row p and at the column `idx[e, 0]`, read signed and clamped into
    [0, C − 1]. On axis 0 the start is zero and the offset coordinate is the result's row; on axis 1 the offset is zero
    and the start is the clamped index. -/
theorem gather_cols_apply {A C E w : Nat} (hC : 0 < C)
    (wf : GatherDims.WF ⟨2, ![A, C]⟩ ⟨2, ![E, 1]⟩ ⟨2, ![A, E]⟩ [0] [1] [] [1] [] 1 ![A, 1])
    (x : (⟨2, ![A, C]⟩ : Shape).Idx → α) (idx : IVec ⟨2, ![E, 1]⟩ w) (p : Fin A) (e : Fin E) :
    Host.gather (colDims A C E wf) x idx (ix2 p e)
      = x (ix2 p ⟨min (idx (ix2 e (0 : Fin 1))).toInt.toNat (C - 1), by omega⟩) := by
  unfold Host.gather
  congr 1
  funext a
  refine Fin.ext ?_
  match a with
  | ⟨0, _⟩ =>
    show (colDims A C E wf).start (ix2 p e) idx 0 + (colDims A C E wf).batchCoord (ix2 p e) 0
      + (colDims A C E wf).offCoord (ix2 p e) 0 = p.val
    rw [GatherDims.batchCoord_eq_zero _ _ _ List.not_mem_nil]
    unfold GatherDims.start
    rw [dif_neg (show ¬ (0 : Fin 2) ∈ ([1] : List (Fin 2)) by decide)]
    unfold GatherDims.offCoord
    rw [dif_pos ((GatherDims.mem_sKept _ _).mpr
      ⟨(show ¬ (0 : Fin 2) ∈ ([1] : List (Fin 2)) by decide), List.not_mem_nil⟩)]
    simp only [Nat.zero_add, Nat.add_zero]
    rfl
  | ⟨1, _⟩ =>
    show (colDims A C E wf).start (ix2 p e) idx 1 + (colDims A C E wf).batchCoord (ix2 p e) 1
      + (colDims A C E wf).offCoord (ix2 p e) 1 = min (idx (ix2 e (0 : Fin 1))).toInt.toNat (C - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims A C E wf).startIndexMap from List.mem_singleton.mpr rfl)]
    have hsi : (colDims A C E wf).siIdx (ix2 p e) ⟨List.idxOf (1 : Fin 2) (colDims A C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.LibHostGatherCols
-- ==== Proof.RefValue.lean ====
/-
  The reference computes the network of the specification, entry by entry.

  Each stage of the reference is read at row `p` and column `q`. The gathered column `e` of the observations is
  column `e + 4` (the index table's entry `e` is `e + 4`, below the clamp), so the joined row is the
  specification's: the observation row without its first four entries, then the row of `y`. An affine layer at
  `(p, q)` is the sum over `k` of the row's entry `k` times the weight's entry `(k, q)`, plus the bias's entry
  `q`. The hyperbolic tangent, the exponential and the square root act entry by entry, a rectification is the
  maximum with zero, a clipping the minimum with the upper bound of the maximum with the lower bound. Composing
  these readings along the stages gives the specification's rows, hence its three arrays.
-/
import proofs.«141094_j3762391351958_2_alg».proof.Proof.RefStages
import proofs.«141094_j3762391351958_2_alg».proof.Proof.Spec
import proofs.«141094_j3762391351958_2_alg».proof.Proof.LibHostAffine
import proofs.«141094_j3762391351958_2_alg».proof.Proof.LibHostGatherCols

noncomputable section

open scoped BigOperators

namespace Cert.ReferenceIdeal.RefValue

open Cert.ReferenceIdeal Cert.ReferenceIdeal.Gen Cert.ReferenceIdeal.RefRun Idealize.ShloMosaic Idealize.ShloMosaic.ValueIdx
  Idealize.ShloMosaic.TcCoe Idealize.SL.Sem Idealize.ShloMosaic.StableHlo
open Cert.Mlp (rowOf matOf vecOf lin joined)

/-! ## The entry-by-entry operations -/

theorem tanh_apply {s : Shape} {φ : FTy} (x : FVec Ideal s φ) (i : s.Idx) : Host.tanh x i = Ideal.tanh (x i) := rfl
theorem exp_apply {s : Shape} {φ : FTy} (x : FVec Ideal s φ) (i : s.Idx) : Host.exp x i = Ideal.exp (x i) := rfl
theorem sqrt_apply {s : Shape} {φ : FTy} (x : FVec Ideal s φ) (i : s.Idx) : Host.sqrt x i = Ideal.sqrt (x i) := rfl

/-- A rectification at an entry: the maximum with zero. -/
theorem relu64_apply (x : FVec Ideal S1048576x64 .f32) (i : S1048576x64.Idx) :
    relu64 x i = max (x i) Cert.Mlp.zero := by
  unfold relu64
  rw [maximumf_apply, Cert.LibHostBroadcast.bcast_scalar_apply]
  rfl

theorem relu32_apply (x : FVec Ideal S1048576x32 .f32) (i : S1048576x32.Idx) :
    relu32 x i = max (x i) Cert.Mlp.zero := by
  unfold relu32
  rw [maximumf_apply, Cert.LibHostBroadcast.bcast_scalar_apply]
  rfl

/-- A clipping at an entry: the minimum of the upper bound with the maximum of the lower bound and the entry. -/
theorem clip16_apply (lo hi : BitVec 32) (x : FVec Ideal S1048576x16 .f32) (i : S1048576x16.Idx) :
    clip16 lo hi x i = min (Ideal.ofBits .f32 hi) (max (Ideal.ofBits .f32 lo) (x i)) := by
  unfold clip16
  rw [minimumf_apply, maximumf_apply, Cert.LibHostBroadcast.bcast_scalar_apply,
    Cert.LibHostBroadcast.bcast_scalar_apply]
  rfl

/-! ## The joined rows -/

/-- Entry `e` of the index column is `e + 4`, and the clamp to the last column leaves it. -/
theorem idxCol_entry : ∀ e : Fin 60, min (idxCol (ix2 e (0 : Fin 1))).toInt.toNat (64 - 1) = e.val + 4 := by
  decide

/-- The joined rows at an entry: the specification's joined row. -/
theorem joinedArr_apply (obs : FVec Ideal S1048576x64 .f32) (y : FVec Ideal S1048576x16 .f32)
    (p : Fin 1048576) (k : Fin 76) :
    joinedArr obs y (ix2 p k) = joined (rowOf obs p) (rowOf y p) k := by
  unfold joinedArr
  show _ = if h : k.val < 60 then rowOf obs p ⟨k.val + 4, by omega⟩ else rowOf y p ⟨k.val - 60, by omega⟩
  by_cases h : k.val < 60
  · rw [dif_pos h]
    refine (concatenate_pair_apply_left _ _ _ concatenates_S1048576x60_S1048576x16_S1048576x76_d1 (ix2 p k) rfl
      (ix2 p (⟨k.val, h⟩ : Fin 60)) (fun b => ?_)).trans ?_
    · match b with
      | ⟨0, _⟩ => rfl
      | ⟨1, _⟩ => rfl
    · refine (Cert.LibHostGatherCols.gather_cols_apply (by decide) gather_S1048576x64_S60x1_S1048576x60_0_1_n_n_1_1_10485761_wf obs idxCol p ⟨k.val, h⟩).trans ?_
      exact congrArg obs (congrArg (ix2 p) (Fin.ext (idxCol_entry ⟨k.val, h⟩)))
  · rw [dif_neg h]
    exact concatenate_pair_apply_right _ _ _ concatenates_S1048576x60_S1048576x16_S1048576x76_d1 (ix2 p k) rfl rfl
      (ix2 p (⟨k.val - 60, by omega⟩ : Fin 16))
      (fun b hb => by
        match b with
        | ⟨0, _⟩ => rfl
        | ⟨1, _⟩ => exact absurd rfl hb)
      (by show (k.val - 60) + 60 = k.val; omega)

/-! ## The affine layers -/

theorem aff76x64_apply (x : FVec Ideal S1048576x76 .f32) (w : FVec Ideal S76x64 .f32) (b : FVec Ideal S64 .f32)
    (p : Fin 1048576) (q : Fin 64) :
    aff76x64 x w b (ix2 p q) = lin (fun k => x (ix2 p k)) (matOf w) (vecOf b) q :=
  Cert.LibHostAffine.affine_apply _ rfl none _ rfl _ _ rfl _ x w b p q

theorem aff64x64_apply (x : FVec Ideal S1048576x64 .f32) (w : FVec Ideal S64x64 .f32) (b : FVec Ideal S64 .f32)
    (p : Fin 1048576) (q : Fin 64) :
    aff64x64 x w b (ix2 p q) = lin (fun k => x (ix2 p k)) (matOf w) (vecOf b) q :=
  Cert.LibHostAffine.affine_apply _ rfl none _ rfl _ _ rfl _ x w b p q

theorem aff64x76_apply (x : FVec Ideal S1048576x64 .f32) (w : FVec Ideal S64x76 .f32) (b : FVec Ideal S76 .f32)
    (p : Fin 1048576) (q : Fin 76) :
    aff64x76 x w b (ix2 p q) = lin (fun k => x (ix2 p k)) (matOf w) (vecOf b) q :=
  Cert.LibHostAffine.affine_apply _ rfl none _ rfl _ _ rfl _ x w b p q

theorem aff64x32_apply (x : FVec Ideal S1048576x64 .f32) (w : FVec Ideal S64x32 .f32) (b : FVec Ideal S32 .f32)
    (p : Fin 1048576) (q : Fin 32) :
    aff64x32 x w b (ix2 p q) = lin (fun k => x (ix2 p k)) (matOf w) (vecOf b) q :=
  Cert.LibHostAffine.affine_apply _ rfl none _ rfl _ _ rfl _ x w b p q

theorem aff32x16_apply (x : FVec Ideal S1048576x32 .f32) (w : FVec Ideal S32x16 .f32) (b : FVec Ideal S16 .f32)
    (p : Fin 1048576) (q : Fin 16) :
    aff32x16 x w b (ix2 p q) = lin (fun k => x (ix2 p k)) (matOf w) (vecOf b) q :=
  Cert.LibHostAffine.affine_apply _ rfl none _ rfl _ _ rfl _ x w b p q

theorem aff16x16_apply (x : FVec Ideal S1048576x16 .f32) (w : FVec Ideal S16x16 .f32) (b : FVec Ideal S16 .f32)
    (p : Fin 1048576) (q : Fin 16) :
    aff16x16 x w b (ix2 p q) = lin (fun k => x (ix2 p k)) (matOf w) (vecOf b) q :=
  Cert.LibHostAffine.affine_apply _ rfl none _ rfl _ _ rfl _ x w b p q

/-! ## The networks -/

/-- The embedding network at an entry. -/
theorem embedArr_apply (x : FVec Ideal S1048576x76 .f32) (ew1 : FVec Ideal S76x64 .f32) (eb1 : FVec Ideal S64 .f32)
    (ew2 : FVec Ideal S64x64 .f32) (eb2 : FVec Ideal S64 .f32) (ew3 : FVec Ideal S64x76 .f32) (eb3 : FVec Ideal S76 .f32)
    (p : Fin 1048576) (q : Fin 76) :
    embedArr x ew1 eb1 ew2 eb2 ew3 eb3 (ix2 p q)
      = lin (fun k => Ideal.tanh (lin (fun k => Ideal.tanh (lin (fun k => x (ix2 p k)) (matOf ew1) (vecOf eb1) k))
          (matOf ew2) (vecOf eb2) k)) (matOf ew3) (vecOf eb3) q := by
  unfold embedArr
  rw [aff64x76_apply]
  simp only [tanh_apply, aff64x64_apply, aff76x64_apply]

/-- The encoder at an entry. -/
theorem encArr_apply (h : FVec Ideal S1048576x76 .f32) (cw1 : FVec Ideal S76x64 .f32) (cb1 : FVec Ideal S64 .f32)
    (cw2 : FVec Ideal S64x64 .f32) (cb2 : FVec Ideal S64 .f32) (cw3 : FVec Ideal S64x32 .f32) (cb3 : FVec Ideal S32 .f32)
    (cw4 : FVec Ideal S32x16 .f32) (cb4 : FVec Ideal S16 .f32) (p : Fin 1048576) (q : Fin 16) :
    encArr h cw1 cb1 cw2 cb2 cw3 cb3 cw4 cb4 (ix2 p q)
      = lin (fun k => max (lin (fun k => max (lin (fun k => max (lin (fun k => h (ix2 p k)) (matOf cw1) (vecOf cb1) k)
          Cert.Mlp.zero) (matOf cw2) (vecOf cb2) k) Cert.Mlp.zero) (matOf cw3) (vecOf cb3) k) Cert.Mlp.zero)
          (matOf cw4) (vecOf cb4) q := by
  unfold encArr
  rw [aff32x16_apply]
  simp only [relu32_apply, aff64x32_apply, relu64_apply, aff64x64_apply, aff76x64_apply]

/-! ## The results -/

/-- The parameters read off the contents of the eighteen weight and bias buffers. -/
def PV (V : Valuation τ sig (Elt Ideal)) : Cert.Mlp.Params :=
  Cert.Mlp.paramsOf (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig))
    (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig))

/-- The encoder's output at an entry is the specification's, for row `p` of the inputs. -/
theorem zOf_apply (V : Valuation τ sig (Elt Ideal)) (p : Fin 1048576) (q : Fin 16) :
    zOf V (ix2 p q) = Cert.Mlp.zOf (PV V) (V (main_arg0 : DevRef τ sig)) (V (main_arg1 : DevRef τ sig)) p q := by
  unfold zOf
  rw [encArr_apply]
  simp only [embedArr_apply, joinedArr_apply]
  rfl

theorem resMu_apply (V : Valuation τ sig (Elt Ideal)) (p : Fin 1048576) (q : Fin 16) :
    resMu V (ix2 p q) = Cert.Mlp.muRow (PV V) (Cert.Mlp.zOf (PV V) (V (main_arg0 : DevRef τ sig)) (V (main_arg1 : DevRef τ sig)) p) q := by
  unfold resMu muArr
  rw [tanh_apply, clip16_apply, aff16x16_apply]
  simp only [zOf_apply]
  rfl

theorem resSd_apply (V : Valuation τ sig (Elt Ideal)) (p : Fin 1048576) (q : Fin 16) :
    resSd V (ix2 p q) = Cert.Mlp.sdRow (PV V) (Cert.Mlp.zOf (PV V) (V (main_arg0 : DevRef τ sig)) (V (main_arg1 : DevRef τ sig)) p) q := by
  unfold resSd sdArr
  rw [exp_apply, clip16_apply, aff16x16_apply]
  simp only [zOf_apply]
  rfl

theorem resSample_apply (V : Valuation τ sig (Elt Ideal)) (p : Fin 1048576) (q : Fin 16) :
    resSample V (ix2 p q)
      = Cert.Mlp.sampleRow (PV V) (Cert.Mlp.zOf (PV V) (V (main_arg0 : DevRef τ sig)) (V (main_arg1 : DevRef τ sig)) p) (rowOf (V (main_arg2 : DevRef τ sig)) p) q := by
  unfold resSample sampleArr
  rw [addf_apply, mulf_apply, sqrt_apply, resMu_apply, resSd_apply]
  rfl

/-- The parameters read off the launch memory of device `c`. -/
def P (m : (l : Loc nD τ sig) → Buf (Elt Ideal) l) (c : Dev nD) : Cert.Mlp.Params :=
  Cert.Mlp.paramsOf (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))

theorem resMu_eq (m : (l : Loc nD τ sig) → Buf (Elt Ideal) l) (c : Dev nD) :
    resMu (launchContents m c) = Cert.Mlp.Gmu (P m c) (m ((c.tc : Thread nD τ).loc main_arg0)) (m ((c.tc : Thread nD τ).loc main_arg1)) := by
  funext i
  obtain ⟨p, q, rfl⟩ : ∃ (p : Fin 1048576) (q : Fin 16), i = ix2 p q := ⟨i 0, i 1, eq_ix2 i⟩
  rw [resMu_apply]
  rfl

theorem resSd_eq (m : (l : Loc nD τ sig) → Buf (Elt Ideal) l) (c : Dev nD) :
    resSd (launchContents m c) = Cert.Mlp.Gsd (P m c) (m ((c.tc : Thread nD τ).loc main_arg0)) (m ((c.tc : Thread nD τ).loc main_arg1)) := by
  funext i
  obtain ⟨p, q, rfl⟩ : ∃ (p : Fin 1048576) (q : Fin 16), i = ix2 p q := ⟨i 0, i 1, eq_ix2 i⟩
  rw [resSd_apply]
  rfl

theorem resSample_eq (m : (l : Loc nD τ sig) → Buf (Elt Ideal) l) (c : Dev nD) :
    resSample (launchContents m c) = Cert.Mlp.Gsample (P m c) (m ((c.tc : Thread nD τ).loc main_arg0)) (m ((c.tc : Thread nD τ).loc main_arg1)) (m ((c.tc : Thread nD τ).loc main_arg2)) := by
  funext i
  obtain ⟨p, q, rfl⟩ : ∃ (p : Fin 1048576) (q : Fin 16), i = ix2 p q := ⟨i 0, i 1, eq_ix2 i⟩
  rw [resSample_apply]
  rfl

/-- From any memory with zero counters every weakly fair execution of the reference terminates with the sample, the
    mean and the variance of the specification in its three result buffers, and every argument unchanged. -/
theorem run (m : (l : Loc nD τ sig) → Buf (Elt Ideal) l) (ρ : Dev nD → PrngReg) :
    θ_run (defs (F := Ideal)) (onTc (τ := τ) (main (F := Ideal))) ⟨m, fun _ => 0, ρ⟩ fun r => ∀ c : Dev nD,
      r.2.mem ((c.tc : Thread nD τ).loc main_v53) = Cert.Mlp.Gsample (P m c) (m ((c.tc : Thread nD τ).loc main_arg0)) (m ((c.tc : Thread nD τ).loc main_arg1)) (m ((c.tc : Thread nD τ).loc main_arg2))
      ∧ r.2.mem ((c.tc : Thread nD τ).loc main_v44) = Cert.Mlp.Gmu (P m c) (m ((c.tc : Thread nD τ).loc main_arg0)) (m ((c.tc : Thread nD τ).loc main_arg1))
      ∧ r.2.mem ((c.tc : Thread nD τ).loc main_v50) = Cert.Mlp.Gsd (P m c) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run (defs (F := Ideal)) _ _).mono
    (fun _ h c => ⟨(h c).1.trans (resSample_eq m c), (h c).2.1.trans (resMu_eq m c),
      (h c).2.2.1.trans (resSd_eq m c), (h c).2.2.2⟩)
    (Cert.ReferenceIdeal.RefRun.run (F := Ideal) m ρ)

end Cert.ReferenceIdeal.RefValue

end
-- ==== Proof.lean ====
/-
  The certificate's five claims.

  Both programs compute one network, row by row (Proof/Spec.lean): the observation row without its first four entries,
  joined with the row of y, goes through an embedding (two tanh layers and an affine layer), an encoder (three rectified
  layers and an affine layer) and two affine heads; the mean is the tanh of the first head clipped to [-7.24, 7.24], the
  variance the exponential of the second clipped to [-5, 2], the sample is mean + sqrt(variance) · noise. At the ideal
  instance a float is an extended real, a change of float format is the identity and a matrix product is the plain sum of
  products, so the kernel's rounding of its matrix operands and its tiling into 256 blocks of 4096 rows do not change the
  value, and its first layer, computed as the sum of two products over the 60 observation columns and the 16 columns of
  y, is the reference's one product over the 76 joined columns (sums over the extended reals are commutative and
  associative; the precondition is not used).

  The kernel's three result arrays are the whole-array functions Gsample, Gmu, Gsd of its arguments
  (Proof/KernelValue.lean, over the generated frame run), and so are the reference's (Proof/RefValue.lean, over its run
  written as a list of host operations); for arguments that agree the two are equal. The three frames are the generated
  ones for the two kernel programs and the reference's run with its results dropped; the idealization rewrote nothing, so
  the kernel's idealization is the program's own text.
-/
import proofs.«141094_j3762391351958_2_alg».proof.Defs
import proofs.«141094_j3762391351958_2_alg».proof.Proof.Gen.Kernel
import proofs.«141094_j3762391351958_2_alg».proof.Proof.Gen.Kernel.Skeleton
import proofs.«141094_j3762391351958_2_alg».proof.Proof.Gen.Kernel.Launch
import proofs.«141094_j3762391351958_2_alg».proof.Proof.Gen.Kernel.Points
import proofs.«141094_j3762391351958_2_alg».proof.Proof.Gen.Kernel.Frame
import proofs.«141094_j3762391351958_2_alg».proof.Proof.Gen.KernelIdeal
import proofs.«141094_j3762391351958_2_alg».proof.Proof.Gen.KernelIdeal.Skeleton
import proofs.«141094_j3762391351958_2_alg».proof.Proof.Gen.KernelIdeal.Launch
import proofs.«141094_j3762391351958_2_alg».proof.Proof.Gen.KernelIdeal.Points
import proofs.«141094_j3762391351958_2_alg».proof.Proof.Gen.KernelIdeal.Frame
import proofs.«141094_j3762391351958_2_alg».proof.Proof.Gen.KernelIdeal.Value
import proofs.«141094_j3762391351958_2_alg».proof.Proof.Gen.ReferenceIdeal
import proofs.«141094_j3762391351958_2_alg».proof.Proof.Gen.Pre_finite_inputs
import proofs.«141094_j3762391351958_2_alg».proof.Proof.KernelValue
import proofs.«141094_j3762391351958_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run leaves its arguments unchanged: its read-back run with the three results dropped. -/
theorem frame_ri : Cert.frame_ReferenceIdeal := fun m ρ _ =>
  (θ_run Cert.ReferenceIdeal.defs _ _).mono (fun _ h c => (h c).2.2.2) (Cert.ReferenceIdeal.RefValue.run m ρ)

/-- The idealization rewrote no operation. -/
theorem preserves : Cert.preserves_Kernel_KernelIdeal := trivial

/-- From memories that agree on the 21 arguments both programs end with the network's sample, mean and variance of those
    arguments in their three result arrays. -/
theorem algebraic : Cert.algebraic_KernelIdeal_ReferenceIdeal := by
  intro m ρ m' ρ' _ hagree
  refine ⟨_, _, _, Cert.KernelIdeal.KValue.run m ρ, ?_⟩
  refine (θ_run Cert.ReferenceIdeal.defs _ _).mono (fun _ h c => ?_) (Cert.ReferenceIdeal.RefValue.run m' ρ')
  obtain ⟨a0, a1, a2, a3, a4, a5, a6, a7, a8, a9, a10, a11, a12, a13, a14, a15, a16, a17, a18, a19, a20⟩ := hagree c
  have hP : Cert.ReferenceIdeal.RefValue.P m' c = Cert.KernelIdeal.Blocks.PK m c := by
    unfold Cert.ReferenceIdeal.RefValue.P Cert.KernelIdeal.Blocks.PK
    rw [a3, a4, a5, a6, a7, a8, a9, a10, a11, a12, a13, a14, a15, a16, a17, a18, a19, a20]
  refine ⟨(h c).1.trans ?_, (h c).2.1.trans ?_, (h c).2.2.1.trans ?_, (h c).2.2.2⟩
  · rw [hP, a0, a1, a2]
  · rw [hP, a0, a1]
  · rw [hP, a0, a1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
